-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1100000 : Shape := ⟨2, ![2, 1100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S128 .f32) (main_arg9 : FVec F S128x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : IVec S2x1100000 32) (main_arg1 : IVec S100000 32) (main_arg2 : FVec F S100000x64 .f32) (main_arg3 : FVec F S64x64 .f32) (main_arg4 : FVec F S64 .f32) (main_arg5 : FVec F S64x64 .f32) (main_arg6 : FVec F S64 .f32) (main_arg7 : FVec F S64x128 .f32) (main_arg8 : FVec F S128 .f32) (main_arg9 : FVec F S128x1 .f32) (main_arg10 : FVec F S1 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S2x1100000 : Shape := ⟨2, ![2, 1100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1100000 : Shape := ⟨2, ![1, 1100000]⟩
abbrev S1100000 : Shape := ⟨1, ![1100000]⟩
abbrev S1200000 : Shape := ⟨1, ![1200000]⟩
abbrev S_ : Shape := ⟨0, ![]⟩
abbrev S1200000x1 : Shape := ⟨2, ![1200000, 1]⟩
abbrev S10000x64 : Shape := ⟨2, ![10000, 64]⟩
abbrev S1200000x64 : Shape := ⟨2, ![1200000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x128 : Shape := ⟨2, ![1, 128]⟩
abbrev S1x1 : Shape := ⟨2, ![1, 1]⟩
abbrev S1000x128 : Shape := ⟨2, ![1000, 128]⟩

abbrev nBuf : Space → Nat
  | .hbm => 112
  | .vmem => 17
  | .smem => 0
  | _ => 0

abbrev bufTy : (tb : Table) → Fin (tcTables nBuf tb) → BufTy
  | .hbm, ⟨0, _⟩ => ⟨S2x1100000, .i32⟩
  | .hbm, ⟨1, _⟩ => ⟨S100000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1100000, .i32⟩
  | .hbm, ⟨12, _⟩ => ⟨S1100000, .i32⟩
  | .hbm, ⟨13, _⟩ => ⟨S1x1100000, .i32⟩
  | .hbm, ⟨14, _⟩ => ⟨S1100000, .i32⟩
  | .hbm, ⟨15, _⟩ => ⟨S100000, .i32⟩
  | .hbm, ⟨16, _⟩ => ⟨S1200000, .i32⟩
  | .hbm, ⟨17, _⟩ => ⟨S1200000, .i32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000, .f32⟩
  | .hbm, ⟨53, _⟩ => ⟨S1200000, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S1200000x1, .f32⟩
  | .hbm, ⟨65, _⟩ => ⟨S1200000x64, .f32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1200000, .i32⟩
  | .hbm, ⟨75, _⟩ => ⟨S1200000, .i1⟩
  | .hbm, ⟨76, _⟩ => ⟨S_, .i32⟩
  | .hbm, ⟨77, _⟩ => ⟨S1200000, .i32⟩
  | .hbm, ⟨78, _⟩ => ⟨S1200000, .i32⟩
  | .hbm, ⟨79, _⟩ => ⟨S1200000, .i32⟩
  | .hbm, ⟨80, _⟩ => ⟨S1200000x1, .i32⟩
  | .hbm, ⟨81, _⟩ => ⟨S1200000x64, .f32⟩
  | .hbm, ⟨82, _⟩ => ⟨S1200000x1, .f32⟩
  | .hbm, ⟨83, _⟩ => ⟨S1200000x64, .f32⟩
  | .hbm, ⟨84, _⟩ => ⟨S1200000x64, .f32⟩
  | .hbm, ⟨85, _⟩ => ⟨S_, .f32⟩
  | .hbm, ⟨86, _⟩ => ⟨S100000x64, .f32⟩
  | .hbm, ⟨87, _⟩ => ⟨S1200000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S1000x64, .f32⟩
  | .hbm, ⟨94, _⟩ => ⟨S100000x1, .i32⟩
  | .hbm, ⟨95, _⟩ => ⟨S1000x64, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S1000, .f32⟩
  | .hbm, ⟨100, _⟩ => ⟨S100000x1, .i32⟩
  | .hbm, ⟨101, _⟩ => ⟨S1000, .f32⟩
  | .hbm, ⟨102, _⟩ => ⟨S_, .f32⟩
  | .hbm, ⟨103, _⟩ => ⟨S1000, .f32⟩
  | .hbm, ⟨104, _⟩ => ⟨S1000, .f32⟩
  | .hbm, ⟨105, _⟩ => ⟨S1000x1, .f32⟩
  | .hbm, ⟨106, _⟩ => ⟨S1000x64, .f32⟩
  | .hbm, ⟨107, _⟩ => ⟨S1000x64, .f32⟩
  | .hbm, ⟨108, _⟩ => ⟨S1x128, .f32⟩
  | .hbm, ⟨109, _⟩ => ⟨S1x1, .f32⟩
  | .hbm, ⟨110, _⟩ => ⟨S1000x1, .f32⟩
  | .hbm, ⟨111, _⟩ => ⟨S1000, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S1000x64, .f32⟩
  | .local _ .vmem, ⟨12, _⟩ => ⟨S64x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S1000x1, .f32⟩
  | _, _ => ⟨S2x1100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1000x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1100000_S1x1100000_0_0 : S2x1100000.Slices ![0, 0] S1x1100000
  shapeCasts_S1x1100000_S1100000 : S1x1100000.ShapeCasts S1100000
  slices_S2x1100000_S1x1100000_1_0 : S2x1100000.Slices ![1, 0] S1x1100000
  concatenates_S1100000_S100000_S1200000_d0 : Shape.Concatenates [S1100000, S100000] S1200000 0
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S128_S1x128 : S128.ShapeCasts S1x128
  shapeCasts_S1_S1x1 : S1.ShapeCasts S1x1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S1000x1_S1000 : S1000x1.ShapeCasts S1000
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x128_S1000x128_1_0_0_1_n_n_wf : DotDims.WF S1000x64 S64x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1000x1.size a ≤ S1000x1.size a
  hwx2_5 : ∀ i : grid2.Coords, EltTy.bits .f32 = 32 ∨ (Rect.block (s := S1000x1) S1000x1.size (cc2_transform_5 i) (hinb2_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S1000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1000x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x1100000 : Shape := ⟨2, ![2, 1100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1100000 : Shape := ⟨2, ![1, 1100000]⟩
abbrev S1100000 : Shape := ⟨1, ![1100000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000x1 : Shape := ⟨2, ![100000, 1]⟩
abbrev S1000x64 : Shape := ⟨2, ![1000, 64]⟩
abbrev S1000 : Shape := ⟨1, ![1000]⟩
abbrev S1000x1 : Shape := ⟨2, ![1000, 1]⟩
abbrev S1000x128 : Shape := ⟨2, ![1000, 128]⟩
abbrev S1x128 : Shape := ⟨2, ![1, 128]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S2x1100000, .i32⟩
  | 1 => ⟨S100000, .i32⟩
  | 2 => ⟨S100000x64, .f32⟩
  | 3 => ⟨S64x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x1, .f32⟩
  | 10 => ⟨S1, .f32⟩
  | 11 => ⟨S1x1100000, .i32⟩
  | 12 => ⟨S1100000, .i32⟩
  | 13 => ⟨S1x1100000, .i32⟩
  | 14 => ⟨S1100000, .i32⟩
  | 15 => ⟨S100000x64, .f32⟩
  | 16 => ⟨S100000, .i32⟩
  | 17 => ⟨S1200000, .i32⟩
  | 18 => ⟨S1200000, .i32⟩
  | 19 => ⟨S_, .f32⟩
  | 20 => ⟨S1200000, .f32⟩
  | 21 => ⟨S_, .f32⟩
  | 22 => ⟨S100000, .f32⟩
  | 23 => ⟨S1200000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x64, .f32⟩
  | 64 => ⟨S1200000x1, .f32⟩
  | 65 => ⟨S1200000x64, .f32⟩
  | 66 => ⟨S1200000x64, .f32⟩
  | 67 => ⟨S_, .f32⟩
  | 68 => ⟨S100000x64, .f32⟩
  | 69 => ⟨S1200000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S100000, .i32⟩
  | 79 => ⟨S1200000, .i32⟩
  | 80 => ⟨S1200000, .i32⟩
  | 81 => ⟨S_, .f32⟩
  | 82 => ⟨S1200000, .f32⟩
  | 83 => ⟨S_, .f32⟩
  | 84 => ⟨S100000, .f32⟩
  | 85 => ⟨S1200000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1200000, .i32⟩
  | 100 => ⟨S1200000, .i1⟩
  | 101 => ⟨S_, .i32⟩
  | 102 => ⟨S1200000, .i32⟩
  | 103 => ⟨S1200000, .i32⟩
  | 104 => ⟨S1200000, .i32⟩
  | 105 => ⟨S1200000x1, .i32⟩
  | 106 => ⟨S1200000, .f32⟩
  | 107 => ⟨S_, .i32⟩
  | 108 => ⟨S1200000, .i32⟩
  | 109 => ⟨S1200000, .i1⟩
  | 110 => ⟨S_, .i32⟩
  | 111 => ⟨S1200000, .i32⟩
  | 112 => ⟨S1200000, .i32⟩
  | 113 => ⟨S1200000, .i32⟩
  | 114 => ⟨S1200000x1, .i32⟩
  | 115 => ⟨S1200000, .f32⟩
  | 116 => ⟨S1200000, .f32⟩
  | 117 => ⟨S_, .i32⟩
  | 118 => ⟨S1200000, .i32⟩
  | 119 => ⟨S1200000, .i1⟩
  | 120 => ⟨S_, .i32⟩
  | 121 => ⟨S1200000, .i32⟩
  | 122 => ⟨S1200000, .i32⟩
  | 123 => ⟨S1200000, .i32⟩
  | 124 => ⟨S1200000x1, .i32⟩
  | 125 => ⟨S1200000x64, .f32⟩
  | 126 => ⟨S1200000x1, .f32⟩
  | 127 => ⟨S1200000x64, .f32⟩
  | _ => ⟨S2x1100000, .i32⟩

abbrev hbmTy0_1 (i : Nat) : BufTy := match i % 128 with
  | 0 => ⟨S1200000x64, .f32⟩
  | 1 => ⟨S_, .f32⟩
  | 2 => ⟨S100000x64, .f32⟩
  | 3 => ⟨S1200000x1, .i32⟩
  | 4 => ⟨S100000x64, .f32⟩
  | 5 => ⟨S1x64, .f32⟩
  | 6 => ⟨S100000x64, .f32⟩
  | 7 => ⟨S100000x64, .f32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S_, .f32⟩
  | 19 => ⟨S1000x64, .f32⟩
  | 20 => ⟨S100000x1, .i32⟩
  | 21 => ⟨S1000x64, .f32⟩
  | 22 => ⟨S_, .f32⟩
  | 23 => ⟨S100000, .f32⟩
  | 24 => ⟨S_, .f32⟩
  | 25 => ⟨S1000, .f32⟩
  | 26 => ⟨S100000x1, .i32⟩
  | 27 => ⟨S1000, .f32⟩
  | 28 => ⟨S_, .f32⟩
  | 29 => ⟨S1000, .f32⟩
  | 30 => ⟨S1000, .f32⟩
  | 31 => ⟨S1000x1, .f32⟩
  | 32 => ⟨S1000x64, .f32⟩
  | 33 => ⟨S1000x64, .f32⟩
  | 34 => ⟨S1000x128, .f32⟩
  | 35 => ⟨S1x128, .f32⟩
  | 36 => ⟨S1000x128, .f32⟩
  | 37 => ⟨S1000x128, .f32⟩
  | 38 => ⟨S_, .f32⟩
  | 39 => ⟨S1000x128, .f32⟩
  | 40 => ⟨S1000x128, .f32⟩
  | 41 => ⟨S1000x1, .f32⟩
  | 42 => ⟨S1x1, .f32⟩
  | 43 => ⟨S1000x1, .f32⟩
  | 44 => ⟨S1000x1, .f32⟩
  | 45 => ⟨S1000x1, .f32⟩
  | 46 => ⟨S1000x1, .f32⟩
  | 47 => ⟨S_, .f32⟩
  | 48 => ⟨S1000x1, .f32⟩
  | 49 => ⟨S1000x1, .f32⟩
  | 50 => ⟨S_, .f32⟩
  | 51 => ⟨S1000x1, .f32⟩
  | 52 => ⟨S1000x1, .f32⟩
  | 53 => ⟨S1000, .f32⟩
  | _ => ⟨S2x1100000, .i32⟩

abbrev hbmTy (i : Nat) : BufTy := match i / 128 with
  | 0 => hbmTy0_0 i
  | 1 => hbmTy0_1 i
  | _ => ⟨S2x1100000, .i32⟩

abbrev bufTy : (tb : Table) → Fin (tcTables nBuf tb) → BufTy
  | .hbm, ⟨i, _⟩ => hbmTy i
  | _, _ => ⟨S2x1100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_c_18 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_22 : Ref sig .tc := ⟨.hbm, 137, rfl⟩
abbrev main_v96 : Ref sig .tc := ⟨.hbm, 138, rfl⟩
abbrev main_v97 : Ref sig .tc := ⟨.hbm, 139, rfl⟩
abbrev main_c_23 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_25 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_27 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call3_cst : Ref sig .tc := ⟨.hbm, 166, rfl⟩
abbrev main_call3_v0 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_28 : Ref sig .tc := ⟨.hbm, 175, rfl⟩
abbrev main_v126 : Ref sig .tc := ⟨.hbm, 176, rfl⟩
abbrev main_v127 : Ref sig .tc := ⟨.hbm, 177, rfl⟩
abbrev main_cst_29 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩

abbrev nD : Nat := 1
abbrev τ : Topo := Topo.v7x

variable {F : FTy → Type} [FloatOps F]

class Facts₀ : Prop where
  slices_S2x1100000_S1x1100000_0_0 : S2x1100000.Slices ![0, 0] S1x1100000
  shapeCasts_S1x1100000_S1100000 : S1x1100000.ShapeCasts S1100000
  slices_S2x1100000_S1x1100000_1_0 : S2x1100000.Slices ![1, 0] S1x1100000
  concatenates_S1100000_S100000_S1200000_d0 : Shape.Concatenates [S1100000, S100000] S1200000 0
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  bcast_S_S1000x1 : S_.BroadcastsInDim S1000x1 (![] : Fin 0 → Fin S1000x1.rank)
  shapeCasts_S1000x1_S1000 : S1000x1.ShapeCasts S1000
  dot_S100000x64_S64x64_S100000x64_1_0_0_1_n_n_wf : DotDims.WF S100000x64 S64x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  gather_S100000x64_S100000x1_S100000x64_1_0_n_n_0_1_164_wf : GatherDims.WF S100000x64 S100000x1 S100000x64 [1] [0] [] [0] [] 1 ![1, 64]
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x128_S1000x128_1_0_0_1_n_n_wf : DotDims.WF S1000x64 S64x128 S1000x128 [1] [0] [0] [1] [] []
  dot_S1000x128_S128x1_S1000x1_1_0_0_1_n_n_wf : DotDims.WF S1000x128 S128x1 S1000x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.RunValue.lean ====
/-
  The run of the whole program with its result named: every weakly fair execution ends with the result array holding
  what the last boundary's contents assign it — the fold of the host stretches and of the three regions' write-backs
  from the launch memory — and with the argument arrays as launched.
-/
import proofs.«101593_j3702261809849_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and
    every argument array as launched. -/
theorem run_value : θ_run defs (onTc (τ := τ) (main (F := F))) ⟨m, fun _ => 0, ρ⟩ (fun r => ∀ c : Dev nD,
      r.2.mem ((c.tc : Thread nD τ).loc main_v79) = W9 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v79 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.LibDenseSpec.lean ====
/-
  Whole-array functions of a row-tiled multilayer perceptron on the extended reals, entry by entry, for any extents:
  an affine map x·W + b, the product alone, the upper and lower rows of a weight matrix, the same with the contraction split over two inputs (x·Wa + y·Wb + b), the maximum with
  zero, a batch-norm epilogue max((h + b)·s + β, 0) with per-column vectors, and the logistic function of every
  entry. Every product is a plain finite sum over the contracted coordinate; the biases are vectors read at ix1.
-/
import Idealize.ShloMosaic.PureOps.Ideal
import Idealize.ShloMosaic.Lib.ValueIdx

noncomputable section

namespace Cert.LibDenseSpec

open Idealize.ShloMosaic Idealize.ShloMosaic.ValueIdx

variable {N K K' M : Nat}

/-- The affine map: entry (p, q) is Σ_k x(p,k)·w(k,q) + b(q). -/
def dense (x : FVec Ideal ⟨2, ![N, K]⟩ .f32) (w : FVec Ideal ⟨2, ![K, M]⟩ .f32) (b : FVec Ideal ⟨1, ![M]⟩ .f32) :
    FVec Ideal ⟨2, ![N, M]⟩ .f32 :=
  fun j => (∑ k : Fin K, x (ix2 (j 0) k) * w (ix2 k (j 1))) + b (ix1 (j 1))

/-- The product alone: entry (p, q) is Σ_k x(p,k)·w(k,q). -/
def prod (x : FVec Ideal ⟨2, ![N, K]⟩ .f32) (w : FVec Ideal ⟨2, ![K, M]⟩ .f32) : FVec Ideal ⟨2, ![N, M]⟩ .f32 :=
  fun j => ∑ k : Fin K, x (ix2 (j 0) k) * w (ix2 k (j 1))

/-- Two inputs contracted against two weight matrices, summed, plus the bias:
    entry (p, q) is (Σ_k x(p,k)·wa(k,q) + Σ_k y(p,k)·wb(k,q)) + b(q). -/
def dense2 (x : FVec Ideal ⟨2, ![N, K]⟩ .f32) (y : FVec Ideal ⟨2, ![N, K']⟩ .f32) (wa : FVec Ideal ⟨2, ![K, M]⟩ .f32)
    (wb : FVec Ideal ⟨2, ![K', M]⟩ .f32) (b : FVec Ideal ⟨1, ![M]⟩ .f32) : FVec Ideal ⟨2, ![N, M]⟩ .f32 :=
  fun j => ((∑ k : Fin K, x (ix2 (j 0) k) * wa (ix2 k (j 1))) + ∑ k : Fin K', y (ix2 (j 0) k) * wb (ix2 k (j 1))) + b (ix1 (j 1))

/-- The maximum of every entry with zero. -/
def relu (a : FVec Ideal ⟨2, ![N, M]⟩ .f32) : FVec Ideal ⟨2, ![N, M]⟩ .f32 := fun j => max (a j) 0

/-- The batch-norm epilogue: entry (p, q) is max((h(p,q) + b(q))·s(q) + β(q), 0). -/
def bnRelu (h : FVec Ideal ⟨2, ![N, M]⟩ .f32) (b s β : FVec Ideal ⟨1, ![M]⟩ .f32) : FVec Ideal ⟨2, ![N, M]⟩ .f32 :=
  fun j => max ((h j + b (ix1 (j 1))) * s (ix1 (j 1)) + β (ix1 (j 1))) 0

/-- The first A rows of a matrix of T rows. -/
def topRows {A T : Nat} (h : A ≤ T) (W : FVec Ideal ⟨2, ![T, M]⟩ .f32) : FVec Ideal ⟨2, ![A, M]⟩ .f32 :=
  fun j => W (ix2 ⟨(j 0).val, lt_of_lt_of_le (j 0).isLt h⟩ (j 1))

/-- The B rows of a matrix of T = A + B rows that follow its first A rows. -/
def botRows {B T : Nat} (A : Nat) (h : A + B = T) (W : FVec Ideal ⟨2, ![T, M]⟩ .f32) : FVec Ideal ⟨2, ![B, M]⟩ .f32 :=
  fun j => W (ix2 ⟨A + (j 0).val, by have hj : (j 0).val < B := (j 0).isLt; omega⟩ (j 1))

/-- The logistic function of every entry. -/
def logistic (a : FVec Ideal ⟨2, ![N, M]⟩ .f32) : FVec Ideal ⟨2, ![N, M]⟩ .f32 := fun j => Ideal.logistic (a j)

theorem dense_apply (x : FVec Ideal ⟨2, ![N, K]⟩ .f32) (w : FVec Ideal ⟨2, ![K, M]⟩ .f32) (b : FVec Ideal ⟨1, ![M]⟩ .f32)
    (p : Fin N) (q : Fin M) : dense x w b (ix2 p q) = (∑ k : Fin K, x (ix2 p k) * w (ix2 k q)) + b (ix1 q) := rfl

theorem prod_apply (x : FVec Ideal ⟨2, ![N, K]⟩ .f32) (w : FVec Ideal ⟨2, ![K, M]⟩ .f32) (p : Fin N) (q : Fin M) :
    prod x w (ix2 p q) = ∑ k : Fin K, x (ix2 p k) * w (ix2 k q) := rfl

theorem dense2_apply (x : FVec Ideal ⟨2, ![N, K]⟩ .f32) (y : FVec Ideal ⟨2, ![N, K']⟩ .f32) (wa : FVec Ideal ⟨2, ![K, M]⟩ .f32)
    (wb : FVec Ideal ⟨2, ![K', M]⟩ .f32) (b : FVec Ideal ⟨1, ![M]⟩ .f32) (p : Fin N) (q : Fin M) :
    dense2 x y wa wb b (ix2 p q)
      = ((∑ k : Fin K, x (ix2 p k) * wa (ix2 k q)) + ∑ k : Fin K', y (ix2 p k) * wb (ix2 k q)) + b (ix1 q) := rfl

theorem topRows_apply {A T : Nat} (h : A ≤ T) (W : FVec Ideal ⟨2, ![T, M]⟩ .f32) (p : Fin A) (q : Fin M) :
    topRows h W (ix2 p q) = W (ix2 ⟨p.val, lt_of_lt_of_le p.isLt h⟩ q) := rfl

theorem botRows_apply {B T : Nat} (A : Nat) (h : A + B = T) (W : FVec Ideal ⟨2, ![T, M]⟩ .f32) (p : Fin B) (q : Fin M) :
    botRows A h W (ix2 p q) = W (ix2 ⟨A + p.val, by have hp : p.val < B := p.isLt; omega⟩ q) := rfl

/-- Against a bias that is zero in every entry the affine map is the product alone. -/
theorem dense_zero (x : FVec Ideal ⟨2, ![N, K]⟩ .f32) (w : FVec Ideal ⟨2, ![K, M]⟩ .f32) (b : FVec Ideal ⟨1, ![M]⟩ .f32)
    (hb : ∀ i, b i = 0) : dense x w b = prod x w := by
  funext j; unfold dense prod; rw [hb, add_zero]

theorem relu_apply (a : FVec Ideal ⟨2, ![N, M]⟩ .f32) (j) : relu a j = max (a j) 0 := rfl

theorem bnRelu_apply (h : FVec Ideal ⟨2, ![N, M]⟩ .f32) (b s β : FVec Ideal ⟨1, ![M]⟩ .f32) (p : Fin N) (q : Fin M) :
    bnRelu h b s β (ix2 p q) = max ((h (ix2 p q) + b (ix1 q)) * s (ix1 q) + β (ix1 q)) 0 := rfl

theorem logistic_apply (a : FVec Ideal ⟨2, ![N, M]⟩ .f32) (j) : logistic a j = Ideal.logistic (a j) := rfl

end Cert.LibDenseSpec

end
-- ==== Proof.Spec.lean ====
/-
  One more whole-array function beside the affine layers: a matrix plus a vector broadcast over its rows,
  entry (p, q) ↦ a(p, q) + b(q).
-/
import proofs.«101593_j3702261809849_1_alg».proof.Proof.LibDenseSpec

noncomputable section

namespace Cert.Spec

open Idealize.ShloMosaic Idealize.ShloMosaic.ValueIdx

variable {N M : Nat}

/-- A matrix plus a vector added to every row: entry (p, q) is a(p, q) + b(q). -/
def addRow (a : FVec Ideal ⟨2, ![N, M]⟩ .f32) (b : FVec Ideal ⟨1, ![M]⟩ .f32) : FVec Ideal ⟨2, ![N, M]⟩ .f32 :=
  fun j => a j + b (ix1 (j 1))

theorem addRow_apply (a : FVec Ideal ⟨2, ![N, M]⟩ .f32) (b : FVec Ideal ⟨1, ![M]⟩ .f32) (p : Fin N) (q : Fin M) :
    addRow a b (ix2 p q) = a (ix2 p q) + b (ix1 q) := rfl

end Cert.Spec

end
-- ==== Proof.LibRowVector.lean ====
/-
  A vector viewed as a one-row matrix, read at an index: entry (0, q) of the row is entry q of the vector — for the
  reshape [N] → [1, N] and for the broadcast of [N] along the second axis of [1, N].
-/
import Idealize.ShloMosaic.Lib.Pipeline.Value
import Idealize.ShloMosaic.Lib.ValueIdx

noncomputable section

namespace Cert.Layout

open Idealize.ShloMosaic Idealize.ShloMosaic.ValueIdx

variable {α : Type} {N : Nat}

/-- The reshape of a vector to one row, at (0, q), is the vector at q. -/
theorem rowCast_apply (b : (⟨1, ![N]⟩ : Shape).Idx → α) (h : (⟨1, ![N]⟩ : Shape).ShapeCasts ⟨2, ![1, N]⟩) (q : Fin N) :
    shapeCast ⟨2, ![1, N]⟩ b h (ix2 (0 : Fin 1) q) = b (ix1 q) := by
  refine shapeCast_apply b h _ _ ?_
  rewrite [Shape.rowMajor_val_two, Shape.rowMajor_val_one]
  show q.val = 0 * N + q.val
  omega

/-- The broadcast of a vector along the second axis of one row, at (0, q), is the vector at q. -/
theorem rowBcast_apply (b : (⟨1, ![N]⟩ : Shape).Idx → α) (h : (⟨1, ![N]⟩ : Shape).BroadcastsInDim ⟨2, ![1, N]⟩ ![1]) (q : Fin N) :
    broadcastInDim ⟨2, ![1, N]⟩ ![1] h b (ix2 (0 : Fin 1) q) = b (ix1 q) :=
  broadcastInDim_apply _ h b _ _ fun a => by
    match a with
    | ⟨0, _⟩ =>
      show q.val = if N = 1 then 0 else q.val
      split
      · have := q.isLt; omega
      · rfl

end Cert.Layout

end
-- ==== Proof.HostK.lean ====
/-
  The host stretches of the kernel's program read as values. Each stretch is a short list of whole-array operations;
  read from ANY contents V of the buffers, the buffer a later stage consumes holds the same composition of operations
  that the reference applies — the symmetric normalisation of the graph with self loops (degrees by a scatter-add of
  ones, 1/sqrt where positive, gathered at both ends of every edge and multiplied), the aggregation of a feature
  matrix over the edges (gather at the sources, scale by the edge norm, scatter-add at the targets), and the mean
  pooling over the graph ids — so each is stated against the reference's stage of the same name.
-/
import proofs.«101593_j3702261809849_1_alg».proof.Proof.Gen.KernelIdeal.Launch
import proofs.«101593_j3702261809849_1_alg».proof.Proof.RefRead
import proofs.«101593_j3702261809849_1_alg».proof.Proof.LibConcatCongr
import proofs.«101593_j3702261809849_1_alg».proof.Proof.Spec
import proofs.«101593_j3702261809849_1_alg».proof.Proof.LibRowVector
import Idealize.ShloMosaic.Lib.Pipeline.Value
import Idealize.ShloMosaic.Lib.ValueIdx
import Idealize.ShloMosaic.Lib.StableHlo.Run

noncomputable section

namespace Cert.KernelIdeal.HostValue

open Idealize.ShloMosaic Idealize.ShloMosaic.TcCoe Idealize.SL.Sem Idealize.ShloMosaic.StableHlo Cert.KernelIdeal Cert.KernelIdeal.Gen
open Cert.ReferenceIdeal.ReadP

attribute [local congr] Idealize.ShloMosaic.concatenate_pair_congr

variable (V : Valuation τ sig (Elt Ideal))

/-! ## The first stretch: the edge lists with the self loops appended, the degrees, 1/sqrt -/

theorem s0_v5 : after hostOps0 V (Proc.devRef .tc main_v5) = val_main_v6 (F := Ideal) (V (Proc.devRef .tc main_arg0)) := by
  after_results_simp; rfl
theorem s0_v6 : after hostOps0 V (Proc.devRef .tc main_v6) = val_main_v7 (F := Ideal) (V (Proc.devRef .tc main_arg0)) := by
  after_results_simp; rfl
theorem s0_v12 : after hostOps0 V (Proc.devRef .tc main_v12) = val_main_v13 (F := Ideal) (V (Proc.devRef .tc main_arg0)) := by
  after_results_simp; rfl
theorem s0_v15 : after hostOps0 V (Proc.devRef .tc main_v15) = val_main_v16 (F := Ideal) (V (Proc.devRef .tc main_arg0)) := by
  after_results_simp; rfl
theorem s0_cst3 : after hostOps0 V (Proc.devRef .tc main_cst_3) = val_main_cst_3 (F := Ideal) := by
  after_results_simp; rfl

/-! ## The second stretch: zero where the degree is not positive -/

theorem s01_v16 (x0) (h12 : V (Proc.devRef .tc main_v12) = val_main_v13 (F := Ideal) x0)
    (h15 : V (Proc.devRef .tc main_v15) = val_main_v16 (F := Ideal) x0) (hc : V (Proc.devRef .tc main_cst_3) = val_main_cst_3 (F := Ideal)) :
    after hostOps0_1 V (Proc.devRef .tc main_v16) = val_main_v17 (F := Ideal) x0 := by
  after_results
  simp only [cast_cast, cast_eq]
  rw [h12, h15, hc]
  rfl
theorem s01_v5 : after hostOps0_1 V (Proc.devRef .tc main_v5) = V (Proc.devRef .tc main_v5) := by after_results
theorem s01_v6 : after hostOps0_1 V (Proc.devRef .tc main_v6) = V (Proc.devRef .tc main_v6) := by after_results

/-! ## The third stretch: the edge norm -/

theorem s02_v31 (x0) (h5 : V (Proc.devRef .tc main_v5) = val_main_v6 (F := Ideal) x0)
    (h6 : V (Proc.devRef .tc main_v6) = val_main_v7 (F := Ideal) x0) (h16 : V (Proc.devRef .tc main_v16) = val_main_v17 (F := Ideal) x0) :
    after hostOps0_2 V (Proc.devRef .tc main_v31) = val_main_v32 (F := Ideal) x0 := by
  after_results_simp
  rw [h5, h6, h16]
  rfl
theorem s02_v5 : after hostOps0_2 V (Proc.devRef .tc main_v5) = V (Proc.devRef .tc main_v5) := by after_results_simp
theorem s02_v6 : after hostOps0_2 V (Proc.devRef .tc main_v6) = V (Proc.devRef .tc main_v6) := by after_results_simp

/-! ## The stretch between the first two kernels: the first aggregation, and the first bias as a row -/

theorem s1_v45 (x0 x2 x3) (h32 : V (Proc.devRef .tc main_v32) = val_main_v4 (F := Ideal) x2 x3)
    (h5 : V (Proc.devRef .tc main_v5) = val_main_v6 (F := Ideal) x0) (h6 : V (Proc.devRef .tc main_v6) = val_main_v7 (F := Ideal) x0)
    (h31 : V (Proc.devRef .tc main_v31) = val_main_v32 (F := Ideal) x0) :
    after hostOps1 V (Proc.devRef .tc main_v45) = val_main_v45 (F := Ideal) x0 x2 x3 := by
  after_results_simp
  rw [h32, h5, h6, h31]
  rfl
theorem s1_v46 : after hostOps1 V (Proc.devRef .tc main_v46) = shapeCast S1x64 (V (Proc.devRef .tc main_arg4)) shapeCasts_S64_S1x64 := by
  after_results_simp
  rfl
theorem s1_v5 : after hostOps1 V (Proc.devRef .tc main_v5) = V (Proc.devRef .tc main_v5) := by after_results_simp
theorem s1_v6 : after hostOps1 V (Proc.devRef .tc main_v6) = V (Proc.devRef .tc main_v6) := by after_results_simp
theorem s1_v31 : after hostOps1 V (Proc.devRef .tc main_v31) = V (Proc.devRef .tc main_v31) := by after_results_simp

/-! ## The stretch before the last kernel: the second aggregation, the second bias, the mean pooling, the head's biases as rows -/

/-- A row [1, 64] cast from a vector, broadcast over the rows and added, is the vector added to every row. -/
theorem add_row_cast (A : (⟨S100000x64, .f32⟩ : BufTy).Contents (Elt Ideal)) (b : (⟨S64, .f32⟩ : BufTy).Contents (Elt Ideal)) :
    addf A (broadcastInDim S100000x64 ![0, 1] bcast_S1x64_S100000x64_0_1 (shapeCast S1x64 b shapeCasts_S64_S1x64)) = Cert.Spec.addRow A b := by
  funext j
  obtain ⟨p, q, rfl⟩ : ∃ (p : Fin 100000) (q : Fin 64), j = ValueIdx.ix2 p q := ⟨j 0, j 1, ValueIdx.eq_ix2 j⟩
  rw [ValueIdx.addf_apply, Cert.Spec.addRow_apply]
  refine congrArg (A (ValueIdx.ix2 p q) + ·) ?_
  refine (broadcastInDim_apply _ bcast_S1x64_S100000x64_0_1 _ (ValueIdx.ix2 p q) (ValueIdx.ix2 (0 : Fin 1) q) fun a => ?_).trans
    (Cert.Layout.rowCast_apply b shapeCasts_S64_S1x64 q)
  match a with
  | ⟨0, _⟩ => show 0 = if (1 : ℕ) = 1 then 0 else _; rw [if_pos rfl]
  | ⟨1, _⟩ => show q.val = if (64 : ℕ) = 1 then 0 else q.val; rw [if_neg (by decide)]

theorem s2_v75 (x0 x1 x2 x3 x4 x5 x6)
    (h47 : V (Proc.devRef .tc main_v47) = val_main_v50 (F := Ideal) x0 x2 x3 x4 x5)
    (h5 : V (Proc.devRef .tc main_v5) = val_main_v6 (F := Ideal) x0) (h6 : V (Proc.devRef .tc main_v6) = val_main_v7 (F := Ideal) x0)
    (h31 : V (Proc.devRef .tc main_v31) = val_main_v32 (F := Ideal) x0) (ha6 : V (Proc.devRef .tc main_arg6) = x6) (ha1 : V (Proc.devRef .tc main_arg1) = x1)
    (h102 : val_main_v102 (F := Ideal) x0 x2 x3 x4 x5 x6 = val_main_v94 (F := Ideal) x0 x2 x3 x4 x5 x6)
    (h94 : val_main_v94 (F := Ideal) x0 x2 x3 x4 x5 x6 = Cert.Spec.addRow (val_main_v91 (F := Ideal) x0 x2 x3 x4 x5) x6) :
    after hostOps2 V (Proc.devRef .tc main_v75) = val_main_v114 (F := Ideal) x0 x1 x2 x3 x4 x5 x6 := by
  after_results_simp
  rw [h47, h5, h6, h31, ha6, ha1]
  rw [show (fun i => shapeCast main_v61.ty.shape x6 shapeCasts_S64_S1x64 i) = shapeCast S1x64 x6 shapeCasts_S64_S1x64 from rfl, add_row_cast]
  unfold val_main_v114 val_main_v105
  rw [h102, h94]
  rfl
theorem s2_v76 : after hostOps2 V (Proc.devRef .tc main_v76) = shapeCast S1x128 (V (Proc.devRef .tc main_arg8)) shapeCasts_S128_S1x128 := by
  after_results_simp
  rfl
theorem s2_v77 : after hostOps2 V (Proc.devRef .tc main_v77) = shapeCast S1x1 (V (Proc.devRef .tc main_arg10)) shapeCasts_S1_S1x1 := by
  after_results_simp
  rfl

/-! ## The last stretch: the column of outputs as a vector -/

theorem s3_v79 (x0 x1 x2 x3 x4 x5 x6 x7 x8 x9 x10)
    (h78 : V (Proc.devRef .tc main_v78) = val_main_v129 (F := Ideal) x0 x1 x2 x3 x4 x5 x6 x7 x8 x9 x10) :
    after hostOps3 V (Proc.devRef .tc main_v79) = val_main_v130 (F := Ideal) x0 x1 x2 x3 x4 x5 x6 x7 x8 x9 x10 := by
  after_results_simp
  rw [h78]
  rfl

/-! ## No stretch writes an argument array -/

/-- The argument arrays the later stages read. -/
abbrev argRefs : List (Ref sig .tc) :=
  [main_arg1, main_arg2, main_arg3, main_arg4, main_arg5, main_arg6, main_arg7, main_arg8, main_arg9, main_arg10]

set_option maxHeartbeats 4000000 in
theorem s0_args (b : Ref sig .tc) (hb : b ∈ argRefs) : after hostOps0 V (Proc.devRef .tc b) = V (Proc.devRef .tc b) := by
  simp only [argRefs, List.mem_cons, List.not_mem_nil, or_false] at hb
  rcases hb with rfl | rfl | rfl | rfl | rfl | rfl | rfl | rfl | rfl | rfl <;> after_results_simp
set_option maxHeartbeats 4000000 in
theorem s01_args (b : Ref sig .tc) (hb : b ∈ argRefs) : after hostOps0_1 V (Proc.devRef .tc b) = V (Proc.devRef .tc b) := by
  simp only [argRefs, List.mem_cons, List.not_mem_nil, or_false] at hb
  rcases hb with rfl | rfl | rfl | rfl | rfl | rfl | rfl | rfl | rfl | rfl <;> after_results
set_option maxHeartbeats 4000000 in
theorem s02_args (b : Ref sig .tc) (hb : b ∈ argRefs) : after hostOps0_2 V (Proc.devRef .tc b) = V (Proc.devRef .tc b) := by
  simp only [argRefs, List.mem_cons, List.not_mem_nil, or_false] at hb
  rcases hb with rfl | rfl | rfl | rfl | rfl | rfl | rfl | rfl | rfl | rfl <;> after_results_simp
set_option maxHeartbeats 4000000 in
theorem s1_args (b : Ref sig .tc) (hb : b ∈ argRefs) : after hostOps1 V (Proc.devRef .tc b) = V (Proc.devRef .tc b) := by
  simp only [argRefs, List.mem_cons, List.not_mem_nil, or_false] at hb
  rcases hb with rfl | rfl | rfl | rfl | rfl | rfl | rfl | rfl | rfl | rfl <;> after_results_simp
set_option maxHeartbeats 4000000 in
theorem s2_args (b : Ref sig .tc) (hb : b ∈ argRefs) : after hostOps2 V (Proc.devRef .tc b) = V (Proc.devRef .tc b) := by
  simp only [argRefs, List.mem_cons, List.not_mem_nil, or_false] at hb
  rcases hb with rfl | rfl | rfl | rfl | rfl | rfl | rfl | rfl | rfl | rfl <;> after_results_simp

/-- Through the three stretches before the first kernel. -/
theorem s012_args (b : Ref sig .tc) (hb : b ∈ argRefs) :
    after hostOps0_2 (after hostOps0_1 (after hostOps0 V)) (Proc.devRef .tc b) = V (Proc.devRef .tc b) := by
  rw [s02_args _ b hb, s01_args _ b hb, s0_args _ b hb]

end Cert.KernelIdeal.HostValue

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«101593_j3702261809849_1_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.Region0.lean ====
/-
  The first matrix product of the network, as one function of the arrays its region finds: the region's grid has ten
  points, point t multiplies rows 10000·t … 10000·t + 9999 of the 100000 × 64 input by the whole 64 × 64 weight matrix
  and writes the same rows of the result, so after the ten points the result array is the product of the two arrays,
  entry (p, q) = Σ_k X(p, k) · W(k, q).
-/
import proofs.«101593_j3702261809849_1_alg».proof.Proof.Gen.KernelIdeal.Frame
import proofs.«101593_j3702261809849_1_alg».proof.Proof.Spec
import proofs.«101593_j3702261809849_1_alg».proof.Proof.LibDenseRows
import Idealize.ShloMosaic.Lib.ValueIdx
import Idealize.ShloMosaic.Lib.Pipeline.Value
import Idealize.ShloMosaic.PureOps.Ideal.Laws

noncomputable section
namespace Cert.KernelIdeal.RegionValue
open Idealize.ShloMosaic Idealize.ShloMosaic.TcCoe Idealize.ShloMosaic.ValueIdx Idealize.SL.Sem Cert.KernelIdeal Cert.KernelIdeal.Gen
open Idealize.ShloMosaic.Pipeline (Dat)
open Cert.LibDenseSpec Cert.Spec

variable (V : (c : Dev nD) → (b : Ref sig .tc) → Buf (Elt Ideal) ((c : Thread nD τ).loc b))

/-- The zero offsets of a whole-block access, as the constant function. -/
theorem zero_offsets0 : (![0, 0] : Fin 2 → Nat) = fun _ => 0 := funext fun a => by fin_cases a <;> rfl

/-- The body's result at entry (p, q) of its block: the sum over k of the products of the entries (p, k) of the row
    block and (k, q) of the weights (on the extended reals rounding an operand to a narrower format changes nothing). -/
theorem body0_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Cert.Dense.matmul_plain_apply none (truncf .bf16 x0 bitsLt_bf16_f32) (truncf .bf16 x1 bitsLt_bf16_f32) p q

/-- The block indices over the grid: the row windows (input 0, output 2) sit at block (t, 0), the weights at (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
theorem flushed0_eq (c : Dev nD) (X : FVec Ideal ⟨2, ![100000, 64]⟩ .f32) (W : FVec Ideal ⟨2, ![64, 64]⟩ .f32)
    (hX : V c main_arg2 = X) (hW : V c main_arg3 = W) (t : Fin cfg0.N) :
    (dat0 (F := Ideal) V c).flushed 2 t = ((cfg0.win 2).blk t).view.read (Elt Ideal) (prod X W) := by
  show (cfg0.win 2).cut (grid0.coords t) ((dat0 (F := Ideal) V c).after 2 t) = _
  rw [after0_2]
  unfold out0_2
  rw [View.canon_unit_zero zero_offsets0]
  simp only [View.ld_unit_zero (S := S10000x64) zero_offsets0, View.ld_unit_zero (S := S64x64) zero_offsets0]
  obtain ⟨e00, e01, e10, e11, e20, e21⟩ := block_index0 t
  funext y
  obtain ⟨p, q, rfl⟩ : ∃ (p : Fin 10000) (q : Fin 64), y = ix2 p q := ⟨y 0, y 1, eq_ix2 y⟩
  show k0_pay1 (iblk0 V c 0 t) (iblk0 V c 1 t) (ix2 p q) = prod X W (((cfg0.win 2).blk t).view.emb (ix2 p q))
  refine (body0_apply (iblk0 V c 0 t) (iblk0 V c 1 t) p q).trans ?_
  show _ = ∑ k : Fin 64, X (ix2 ((((cfg0.win 2).blk t).view.emb (ix2 p q)) 0) k) * W (ix2 k ((((cfg0.win 2).blk t).view.emb (ix2 p q)) 1))
  refine Finset.sum_congr rfl fun k _ => ?_
  have hx : iblk0 V c 0 t (ix2 p k) = X (ix2 ((((cfg0.win 2).blk t).view.emb (ix2 p q)) 0) k) := by
    show V c main_arg2 (((cfg0.win 0).blk t).view.emb (ix2 p k)) = _
    rw [hX]
    refine congrArg X (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have hw : iblk0 V c 1 t (ix2 k q) = W (ix2 k ((((cfg0.win 2).blk t).view.emb (ix2 p q)) 1)) := by
    show V c main_arg3 (((cfg0.win 1).blk t).view.emb (ix2 k q)) = _
    rw [hW]
    refine congrArg W (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An index of the result array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every index of the result array is in some point's block: row r is in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨e00, e01, e10, e11, e20, e21⟩ := block_index0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region's ten points is the product of the input array and the weight matrix. -/
theorem final0 (c : Dev nD) (X : FVec Ideal ⟨2, ![100000, 64]⟩ .f32) (W : FVec Ideal ⟨2, ![64, 64]⟩ .f32)
    (hX : V c main_arg2 = X) (hW : V c main_arg3 = W) :
    (dat0 (F := Ideal) V c).arrAt 2 cfg0.N = prod X W :=
  (dat0 (F := Ideal) V c).arrAt_eq_of_cover 2 (prod X W) (fun t _ => flushed0_eq V c X W hX hW t) cover0

end Cert.KernelIdeal.RegionValue
end
-- ==== Proof.Region1.lean ====
/-
  The second layer's product, as one function of the arrays its region finds: the region's grid has ten points, point t
  takes rows 10000·t … 10000·t + 9999 of the 100000 × 64 input, adds the bias row to each of them, takes the maximum with
  zero, multiplies by the whole 64 × 64 weight matrix and writes the same rows of the result. After the ten points the
  result array is entry (p, q) = Σ_k max(X(p, k) + b(k), 0) · W(k, q).
-/
import proofs.«101593_j3702261809849_1_alg».proof.Proof.Gen.KernelIdeal.Frame
import proofs.«101593_j3702261809849_1_alg».proof.Proof.Spec
import proofs.«101593_j3702261809849_1_alg».proof.Proof.LibDenseRows
import Idealize.ShloMosaic.Lib.ValueIdx
import Idealize.ShloMosaic.Lib.Pipeline.Value
import Idealize.ShloMosaic.PureOps.Ideal.Laws

noncomputable section
namespace Cert.KernelIdeal.RegionValue
open Idealize.ShloMosaic Idealize.ShloMosaic.TcCoe Idealize.ShloMosaic.ValueIdx Idealize.SL.Sem Cert.KernelIdeal Cert.KernelIdeal.Gen
open Idealize.ShloMosaic.Pipeline (Dat)
open Cert.LibDenseSpec Cert.Spec

variable (V : (c : Dev nD) → (b : Ref sig .tc) → Buf (Elt Ideal) ((c : Thread nD τ).loc b))

/-- The zero offsets of a whole-block access, as the constant function. -/
theorem zero_offsets1 : (![0, 0] : Fin 2 → Nat) = fun _ => 0 := funext fun a => by fin_cases a <;> rfl

/-- The activation the body feeds to the product, at entry (p, k) of its block: the row block's entry plus the bias
    row's entry k, and the maximum of that with zero. -/
theorem act1_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
      = max (x0 (ix2 p k) + x1 (ix2 (0 : Fin 1) k)) 0 := by
  rw [maximumf_apply, addf_apply, broadcast_apply, shapeCast_self, shapeCast_self]
  have hb : broadcastTo S10000x64 x1 broadcasts_S1x64_S10000x64 (ix2 p k) = x1 (ix2 (0 : Fin 1) k) := by
    refine broadcastTo_apply x1 broadcasts_S1x64_S10000x64 (ix2 p k) (ix2 (0 : Fin 1) k) fun a => ?_
    match a with
    | ⟨0, _⟩ => show 0 = if (1 : ℕ) = 1 then 0 else _; rw [if_pos rfl]
    | ⟨1, _⟩ => show k.val = if (64 : ℕ) = 1 then 0 else k.val; rw [if_neg (by decide)]
  rw [hb]
  show max _ (Ideal.ofBits .f32 0x00000000#32) = _
  rw [Ideal.ofBits_zero_f32]

/-- The body's result at entry (p, q) of its block: the sum over k of the activation at (p, k) times the weight at
    (k, q) (on the extended reals rounding an operand to a narrower format changes nothing). -/
theorem body1_apply (x0 : Vec Ideal S10000x64 .f32) (x1 : Vec Ideal S1x64 .f32) (x2 : Vec Ideal S64x64 .f32)
    (p : Fin 10000) (q : Fin 64) :
    k1_pay1 x0 x1 x2 (ix2 p q) = ∑ k : Fin 64, max (x0 (ix2 p k) + x1 (ix2 (0 : Fin 1) k)) 0 * x2 (ix2 k q) := by
  unfold k1_pay1
  refine (Cert.Dense.matmul_plain_apply none
    (truncf .bf16 (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32))) bitsLt_bf16_f32)
    (truncf .bf16 x2 bitsLt_bf16_f32) p q).trans ?_
  refine Finset.sum_congr rfl fun k _ => ?_
  rw [truncf_apply, truncf_apply, act1_apply]

/-- The block indices over the grid: the row windows (input 0, output 3) sit at block (t, 0), the bias row and the
    weights at (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer's product applied to the whole arrays. -/
theorem flushed1_eq (c : Dev nD) (X : FVec Ideal ⟨2, ![100000, 64]⟩ .f32) (B : FVec Ideal ⟨2, ![1, 64]⟩ .f32)
    (b : FVec Ideal ⟨1, ![64]⟩ .f32) (W : FVec Ideal ⟨2, ![64, 64]⟩ .f32)
    (hX : V c main_v45 = X) (hB : V c main_v46 = B) (hb : ∀ q : Fin 64, B (ix2 (0 : Fin 1) q) = b (ix1 q))
    (hW : V c main_arg5 = W) (t : Fin cfg1.N) :
    (dat1 (F := Ideal) V c).flushed 3 t = ((cfg1.win 3).blk t).view.read (Elt Ideal) (prod (relu (addRow X b)) W) := by
  show (cfg1.win 3).cut (grid1.coords t) ((dat1 (F := Ideal) V c).after 3 t) = _
  rw [after1_3]
  unfold out1_3
  rw [View.canon_unit_zero zero_offsets1]
  simp only [View.ld_unit_zero (S := S10000x64) zero_offsets1, View.ld_unit_zero (S := S1x64) zero_offsets1,
    View.ld_unit_zero (S := S64x64) zero_offsets1]
  obtain ⟨e00, e01, e10, e11, e20, e21, e30, e31⟩ := block_index1 t
  funext y
  obtain ⟨p, q, rfl⟩ : ∃ (p : Fin 10000) (q : Fin 64), y = ix2 p q := ⟨y 0, y 1, eq_ix2 y⟩
  show k1_pay1 (iblk1 V c 0 t) (iblk1 V c 1 t) (iblk1 V c 2 t) (ix2 p q)
    = prod (relu (addRow X b)) W (((cfg1.win 3).blk t).view.emb (ix2 p q))
  refine (body1_apply (iblk1 V c 0 t) (iblk1 V c 1 t) (iblk1 V c 2 t) p q).trans ?_
  show _ = ∑ k : Fin 64, max (X (ix2 ((((cfg1.win 3).blk t).view.emb (ix2 p q)) 0) k) + b (ix1 k)) 0
    * W (ix2 k ((((cfg1.win 3).blk t).view.emb (ix2 p q)) 1))
  refine Finset.sum_congr rfl fun k _ => ?_
  have hx : iblk1 V c 0 t (ix2 p k) = X (ix2 ((((cfg1.win 3).blk t).view.emb (ix2 p q)) 0) k) := by
    show V c main_v45 (((cfg1.win 0).blk t).view.emb (ix2 p k)) = _
    rw [hX]
    refine congrArg X (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hbk : iblk1 V c 1 t (ix2 (0 : Fin 1) k) = b (ix1 k) := by
    show V c main_v46 (((cfg1.win 1).blk t).view.emb (ix2 (0 : Fin 1) k)) = _
    rw [hB, ← hb k]
    refine congrArg B (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hw : iblk1 V c 2 t (ix2 k q) = W (ix2 k ((((cfg1.win 3).blk t).view.emb (ix2 p q)) 1)) := by
    show V c main_arg5 (((cfg1.win 2).blk t).view.emb (ix2 k q)) = _
    rw [hW]
    refine congrArg W (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  rw [hx, hbk, hw]

/-- An index of the result array is in point t's block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Every index of the result array is in some point's block: row r is in the block of point r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨e00, e01, e10, e11, e20, e21, e30, e31⟩ := block_index1 t
  have ht : t.val = (i 0).val / 10000 := rfl
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the region's ten points: the bias row added to every row of the input, the maximum with zero,
    times the weight matrix. -/
theorem final1 (c : Dev nD) (X : FVec Ideal ⟨2, ![100000, 64]⟩ .f32) (B : FVec Ideal ⟨2, ![1, 64]⟩ .f32) (b : FVec Ideal ⟨1, ![64]⟩ .f32)
    (W : FVec Ideal ⟨2, ![64, 64]⟩ .f32)
    (hX : V c main_v45 = X) (hB : V c main_v46 = B) (hb : ∀ q : Fin 64, B (ix2 (0 : Fin 1) q) = b (ix1 q)) (hW : V c main_arg5 = W) :
    (dat1 (F := Ideal) V c).arrAt 3 cfg1.N = prod (relu (addRow X b)) W :=
  (dat1 (F := Ideal) V c).arrAt_eq_of_cover 3 (prod (relu (addRow X b)) W) (fun t _ => flushed1_eq V c X B b W hX hB hb hW t) cover1

end Cert.KernelIdeal.RegionValue
end
-- ==== Proof.Region2.lean ====
/-
  The multilayer-perceptron head, read as one whole-array function. The region's grid has a single point and every
  window is the whole of its array, so the one block written back is the whole [1000, 1] result. Entry (p, 0) of it
  is the logistic function of  Σ_k max(Σ_c x(p,c)·w₁(c,k) + b₁(k), 0)·w₂(k,0) + b₂(0):  two affine layers with the
  maximum with zero between them. On the extended reals every format change is the identity and each matrix product
  into a zero accumulator is the plain finite sum over the contracted coordinate.
  Steps: the payload at an index; the block index of every window is zero, so each input block is its array and the
  output block's coordinates are the array's; what the point writes back is its block of the whole-array function;
  that block covers the array; hence the array after the region is the function.
-/
import proofs.«101593_j3702261809849_1_alg».proof.Proof.Gen.KernelIdeal.Frame
import proofs.«101593_j3702261809849_1_alg».proof.Proof.Spec
import proofs.«101593_j3702261809849_1_alg».proof.Proof.LibDenseRows
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem Cert.KernelIdeal Cert.KernelIdeal.Gen
open Idealize.ShloMosaic.Pipeline (Dat)
open Cert.LibDenseSpec Cert.Spec

variable (V : (c : Dev nD) → (b : Ref sig .tc) → Buf (Elt Ideal) ((c : Thread nD τ).loc b))

namespace Cert.KernelIdeal.RegionValue.Head

/-- The head's payload entry by entry: two affine layers with the maximum with zero between them, then the logistic
    function; format changes are the identity on the extended reals. -/
theorem head_pay_apply (x0 : Vec Ideal S1000x64 .f32) (x1 : Vec Ideal S64x128 .f32) (x2 : Vec Ideal S1x128 .f32)
    (x3 : Vec Ideal S128x1 .f32) (x4 : Vec Ideal S1x1 .f32) (p : Fin 1000) (q : Fin 1) :
    k2_pay1 (F := Ideal) x0 x1 x2 x3 x4 (ix2 p q)
      = Ideal.logistic ((∑ k : Fin 128, max ((∑ c : Fin 64, x0 (ix2 p c) * x1 (ix2 c k)) + x2 (ix2 (0 : Fin 1) k)) 0 * x3 (ix2 k q))
          + x4 (ix2 (0 : Fin 1) q)) := by
  unfold k2_pay1
  simp only [shapeCast_self]
  show Ideal.logistic (Cert.Dense.affK broadcasts_S1x1_S1000x1
      (truncf .bf16 (maximumf (Cert.Dense.affK broadcasts_S1x128_S1000x128 (truncf .bf16 x0 bitsLt_bf16_f32) (truncf .bf16 x1 bitsLt_bf16_f32) x2)
        (broadcast S1000x128 (Scalar.ofBits (F := Ideal) .f32 0x00000000#32))) bitsLt_bf16_f32)
      (truncf .bf16 x3 bitsLt_bf16_f32) x4 (ix2 p q)) = _
  rw [Cert.Dense.affK_apply]
  refine congrArg Ideal.logistic (congrArg (· + x4 (ix2 (0 : Fin 1) q)) (Finset.sum_congr rfl fun k _ => ?_))
  rw [truncf_apply, truncf_apply, maximumf_apply, Cert.Dense.affK_apply, broadcast_apply]
  show max ((∑ c : Fin 64, x0 (ix2 p c) * x1 (ix2 c k)) + x2 (ix2 (0 : Fin 1) k)) (Ideal.ofBits .f32 0x00000000#32) * x3 (ix2 k q) = _
  rw [Ideal.ofBits_zero_f32]

theorem zero_offsets : (![0, 0] : Fin 2 → Nat) = fun _ => 0 := funext fun a => by fin_cases a <;> rfl

/-- The grid has one point, and there every window's block index is zero on both axes: each block is its whole array. -/
theorem block_index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The block of the [1000, 64] input at the point is the input. -/
theorem in_block0 (c : Dev nD) (t : Fin cfg2.N) : (iblk2 V c 0 t : Vec Ideal S1000x64 .f32) = V c main_v75 := by
  obtain ⟨e0, e1, -⟩ := block_index_zero t
  funext y
  show V c main_v75 (((cfg2.win 0).blk t).view.emb y) = V c main_v75 y
  refine congrArg (V c main_v75) (funext fun a => Fin.ext ?_)
  match a with
  | ⟨0, _⟩ => show win2_0.index t (0 : Fin 2) * 1000 + 1 * (y 0).val = (y 0).val; omega
  | ⟨1, _⟩ => show win2_0.index t (1 : Fin 2) * 64 + 1 * (y 1).val = (y 1).val; omega

/-- The block of the [64, 128] weights at the point is the weights. -/
theorem in_block1 (c : Dev nD) (t : Fin cfg2.N) : (iblk2 V c 1 t : Vec Ideal S64x128 .f32) = V c main_arg7 := by
  obtain ⟨-, -, e0, e1, -⟩ := block_index_zero t
  funext y
  show V c main_arg7 (((cfg2.win 1).blk t).view.emb y) = V c main_arg7 y
  refine congrArg (V c main_arg7) (funext fun a => Fin.ext ?_)
  match a with
  | ⟨0, _⟩ => show win2_1.index t (0 : Fin 2) * 64 + 1 * (y 0).val = (y 0).val; omega
  | ⟨1, _⟩ => show win2_1.index t (1 : Fin 2) * 128 + 1 * (y 1).val = (y 1).val; omega

/-- The block of the [1, 128] bias at the point is the bias. -/
theorem in_block2 (c : Dev nD) (t : Fin cfg2.N) : (iblk2 V c 2 t : Vec Ideal S1x128 .f32) = V c main_v76 := by
  obtain ⟨-, -, -, -, e0, e1, -⟩ := block_index_zero t
  funext y
  show V c main_v76 (((cfg2.win 2).blk t).view.emb y) = V c main_v76 y
  refine congrArg (V c main_v76) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The block of the [128, 1] weights at the point is the weights. -/
theorem in_block3 (c : Dev nD) (t : Fin cfg2.N) : (iblk2 V c 3 t : Vec Ideal S128x1 .f32) = V c main_arg9 := by
  obtain ⟨-, -, -, -, -, -, e0, e1, -⟩ := block_index_zero t
  funext y
  show V c main_arg9 (((cfg2.win 3).blk t).view.emb y) = V c main_arg9 y
  refine congrArg (V c main_arg9) (funext fun a => Fin.ext ?_)
  match a with
  | ⟨0, _⟩ => show win2_3.index t (0 : Fin 2) * 128 + 1 * (y 0).val = (y 0).val; omega
  | ⟨1, _⟩ => show win2_3.index t (1 : Fin 2) * 1 + 1 * (y 1).val = (y 1).val; omega

/-- The block of the [1, 1] bias at the point is the bias. -/
theorem in_block4 (c : Dev nD) (t : Fin cfg2.N) : (iblk2 V c 4 t : Vec Ideal S1x1 .f32) = V c main_v77 := by
  obtain ⟨-, -, -, -, -, -, -, -, e0, e1, -⟩ := block_index_zero t
  funext y
  show V c main_v77 (((cfg2.win 4).blk t).view.emb y) = V c main_v77 y
  refine congrArg (V c main_v77) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- What the point writes back is its block of any whole-array function G that agrees, entry by entry, with the payload
    of the five arrays as the region finds them. -/
theorem flushed_eq (c : Dev nD) (G : FVec Ideal ⟨2, ![1000, 1]⟩ .f32)
    (hG : ∀ (p : Fin 1000) (q : Fin 1),
      k2_pay1 (F := Ideal) (V c main_v75) (V c main_arg7) (V c main_v76) (V c main_arg9) (V c main_v77) (ix2 p q) = G (ix2 p q))
    (t : Fin cfg2.N) :
    (dat2 (F := Ideal) V c).flushed 5 t = ((cfg2.win 5).blk t).view.read (Elt Ideal) G := by
  show (cfg2.win 5).cut (grid2.coords t) ((dat2 V c).after 5 t) = _
  rw [after2_5]
  unfold out2_5
  rw [View.canon_unit_zero zero_offsets]
  simp only [View.ld_unit_zero (S := S1000x64) zero_offsets, View.ld_unit_zero (S := S64x128) zero_offsets,
    View.ld_unit_zero (S := S1x128) zero_offsets, View.ld_unit_zero (S := S128x1) zero_offsets,
    View.ld_unit_zero (S := S1x1) zero_offsets]
  have e := congr (congr (congr (congr (congrArg (k2_pay1 (F := Ideal)) (in_block0 V c t)) (in_block1 V c t))
    (in_block2 V c t)) (in_block3 V c t)) (in_block4 V c t)
  obtain ⟨-, -, -, -, -, -, -, -, -, -, e0, e1⟩ := block_index_zero t
  funext j
  obtain ⟨p, q, rfl⟩ : ∃ (p : Fin 1000) (q : Fin 1), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G (((cfg2.win 5).blk t).view.emb (ix2 p q))
  refine ((congrFun e (ix2 p q)).trans (hG p q)).trans (congrArg G (funext fun a => Fin.ext ?_))
  match a with
  | ⟨0, _⟩ => show p.val = win2_5.index t (0 : Fin 2) * 1000 + 1 * p.val; omega
  | ⟨1, _⟩ => show q.val = win2_5.index t (1 : Fin 2) * 1 + 1 * q.val; omega

/-- An index of the [1000, 1] array is in the point's block iff each coordinate is in the block's range on its axis. -/
theorem mem_out_block (t : Fin cfg2.N) (i : S1000x1.Idx) :
    i ∈ ((cfg2.win 5).blk t).view.set ↔ ∀ a : Fin 2, win2_5.index t a * S1000x1.size a ≤ (i a).val ∧ (i a).val < win2_5.index t a * S1000x1.size a + S1000x1.size a := by
  show i ∈ ((View.whole main_v78).slice (win2_5.rect t)).set ↔ _
  rw [View.set_slice_whole, Rect.mem_set_unit]
  exact Iff.rfl

/-- The one point's block covers the whole [1000, 1] array. -/
theorem covered (i : S1000x1.Idx) : ∃ t : Fin cfg2.N, (cfg2.win 5).flush t = true ∧ i ∈ ((cfg2.win 5).blk t).view.set := by
  obtain ⟨-, -, -, -, -, -, -, -, -, -, e0, e1⟩ := block_index_zero t2_0
  refine ⟨t2_0, flush2_5 t2_0, ?_⟩
  rw [mem_out_block]
  intro a
  have h0 : (i 0).val < 1000 := (i 0).isLt
  have h1 : (i 1).val < 1 := (i 1).isLt
  match a with
  | ⟨0, _⟩ => show win2_5.index t2_0 (0 : Fin 2) * 1000 ≤ (i 0).val ∧ (i 0).val < win2_5.index t2_0 (0 : Fin 2) * 1000 + 1000; omega
  | ⟨1, _⟩ => show win2_5.index t2_0 (1 : Fin 2) * 1 ≤ (i 1).val ∧ (i 1).val < win2_5.index t2_0 (1 : Fin 2) * 1 + 1; omega

end Cert.KernelIdeal.RegionValue.Head

namespace Cert.KernelIdeal.RegionValue

open Cert.KernelIdeal.RegionValue.Head

/-- The [1000, 1] array after the region: the logistic function of the second affine layer of the maximum with zero of the
    first affine layer of the input, as one function of the arrays the region finds. -/
theorem final2 (c : Dev nD) (X : FVec Ideal ⟨2, ![1000, 64]⟩ .f32) (W1 : FVec Ideal ⟨2, ![64, 128]⟩ .f32)
    (B1 : FVec Ideal ⟨2, ![1, 128]⟩ .f32) (b1 : FVec Ideal ⟨1, ![128]⟩ .f32) (W2 : FVec Ideal ⟨2, ![128, 1]⟩ .f32)
    (B2 : FVec Ideal ⟨2, ![1, 1]⟩ .f32) (b2 : FVec Ideal ⟨1, ![1]⟩ .f32)
    (hX : V c main_v75 = X) (hW1 : V c main_arg7 = W1) (hB1 : V c main_v76 = B1) (hb1 : ∀ q : Fin 128, B1 (ix2 (0 : Fin 1) q) = b1 (ix1 q))
    (hW2 : V c main_arg9 = W2) (hB2 : V c main_v77 = B2) (hb2 : B2 (ix2 (0 : Fin 1) (0 : Fin 1)) = b2 (ix1 (0 : Fin 1))) :
    (dat2 (F := Ideal) V c).arrAt 5 cfg2.N = Cert.LibDenseSpec.logistic (dense (relu (dense X W1 b1)) W2 b2) := by
  subst hX hW1 hB1 hW2 hB2
  refine (dat2 (F := Ideal) V c).arrAt_eq_of_cover 5 _ (fun t _ => flushed_eq V c _ (fun p q => ?_) t) covered
  obtain rfl : q = 0 := Subsingleton.elim q 0
  rw [head_pay_apply, Cert.LibDenseSpec.logistic_apply, dense_apply, hb2]
  refine congrArg Ideal.logistic (congrArg (· + b2 (ix1 (0 : Fin 1))) (Finset.sum_congr rfl fun k _ => ?_))
  rw [relu_apply, dense_apply, hb1]

end Cert.KernelIdeal.RegionValue

end
-- ==== Proof.LibLoopGather.lean ====
/-
  GATHERS OVER AN INDEX LIST WITH ONE SELF LOOP PER NODE APPENDED.

  A graph has `N` nodes and `E` edges, and an index vector `v` of `E` 32-bit words names a node per edge. Appending
  one self loop per node gives the `T = E + N` entries `v ++ [0, 1, …, N − 1]`: the two-part concatenation, along the
  one axis, of `v` and the iota of extent `N`. This file says that a gather over the `T` entries SPLITS into the same
  gather over the `E` edge entries and the identity on the `N` loop entries:

  * `gatherVec_apply` / `gatherRow_apply`: a gather of entries (of rows) of an operand at a one-column array of start
    indices, read at an index, is the operand at the start index read signed and clamped into `[0, N − 1]`;
  * `bcastCol_apply` / `bcastRows_apply`: a vector laid out as one column, and a column repeated along the rows, read
    at an index;
  * `wrapNeg_apply`, `wrapWord_ofNat`: the wrap of negative indices (`K` is added to a negative entry) at an index, and that
    it leaves the word of a natural number below `2 ^ 31` alone;
  * `concat1_left` / `concat1_right`, `concat2_left` / `concat2_right`: a two-part concatenation of vectors (of
    matrices, along the rows) read at an index of either part;
  * `gatherVec_withLoops` / `gatherRow_withLoops`: a gather at the wrapped indices `v ++ [0, …, N − 1]` is the gather at
    the wrapped `v` followed by the operand itself — loop entry `l` reads the operand at `l`.

  Every statement is over any extents `E`, `N`, `T`, `C` (the concatenation's side condition carries `T = E + N`), over
  literal shapes and indices built from coordinates, so that it applies to a printed operation by unification.
-/
import Idealize.ShloMosaic.Lib.Pipeline.Value
import Idealize.ShloMosaic.Lib.ValueIdx
import Idealize.ShloMosaic.Lib.IdealHost
import Idealize.ShloMosaic.PureOps.Ideal

noncomputable section

namespace LoopConcat

open Idealize.ShloMosaic Idealize.ShloMosaic.ValueIdx

variable {α : Type}

/-! ## The two gathers' dimension numbers -/

/-- The dimension numbers of a gather of ENTRIES of a vector `[N]` at start indices `[T, 1]` (one index per row), with
    result `[T]`: no offset axis, the operand's one axis collapsed, slice size one. Their conditions `wf` are a
    hypothesis, so that a record printed over literal extents is this one by unfolding. -/
abbrev vecGatherDims (N T : ℕ) (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The dimension numbers of a gather of ROWS of a matrix `[N, C]` at start indices `[T, 1]`, with result `[T, C]`:
    the result's second axis is the offset axis, the operand's first axis is collapsed, a slice is one whole row. -/
abbrev rowGatherDims (N T C : ℕ) (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-! ## Layout operations read at an index -/

/-- A vector laid out as one column reads, at `(e, 0)`, the vector at `e`. -/
theorem bcastCol_apply {E : ℕ} (wc : (⟨1, ![E]⟩ : Shape).BroadcastsInDim ⟨2, ![E, 1]⟩ ![0])
    (p : (⟨1, ![E]⟩ : Shape).Idx → α) (e : Fin E) :
    broadcastInDim ⟨2, ![E, 1]⟩ ![0] wc p (ix2 e 0) = p (ix1 e) := by
  refine broadcastInDim_apply _ wc p (ix2 e 0) (ix1 e) fun a => ?_
  match a with
  | ⟨0, _⟩ =>
    show e.val = if E = 1 then 0 else e.val
    split
    · have := e.isLt; omega
    · rfl

/-- A column repeated along the rows reads, at `(e, k)`, the column at `(e, 0)`. -/
theorem bcastRows_apply {E C : ℕ} (wr : (⟨2, ![E, 1]⟩ : Shape).BroadcastsInDim ⟨2, ![E, C]⟩ ![0, 1])
    (q : (⟨2, ![E, 1]⟩ : Shape).Idx → α) (e : Fin E) (k : Fin C) :
    broadcastInDim ⟨2, ![E, C]⟩ ![0, 1] wr q (ix2 e k) = q (ix2 e 0) := by
  refine broadcastInDim_apply _ wr q (ix2 e k) (ix2 e 0) fun a => ?_
  match a with
  | ⟨0, _⟩ =>
    show e.val = if E = 1 then 0 else e.val
    split
    · have := e.isLt; omega
    · rfl
  | ⟨1, _⟩ => rfl

/-! ## The two gathers read at an index -/

/-- A gather of entries read at `e`, for ANY one-column array of start indices: the operand at the start index
    `idx (e, 0)`, read signed and clamped into `[0, N − 1]`. -/
theorem gatherVec_apply_col {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecGatherDims N T wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N T wf).start (ix1 e) idx 0 + (vecGatherDims N T wf).batchCoord (ix1 e) 0
    + (vecGatherDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl)]
  have hsi : (vecGatherDims N T wf).siIdx (ix1 e) ⟨List.idxOf (0 : Fin 1) (vecGatherDims N T wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE GATHER OF ENTRIES READ AT `e`: the operand at the start index `v e`, read signed and clamped into
    `[0, N − 1]`. -/
theorem gatherVec_apply {N T : ℕ} (hN : 0 < N)
    (wf : GatherDims.WF ⟨1, ![N]⟩ ⟨2, ![T, 1]⟩ ⟨1, ![T]⟩ [] [0] [] [0] [] 1 ![1])
    (wc : (⟨1, ![T]⟩ : Shape).BroadcastsInDim ⟨2, ![T, 1]⟩ ![0])
    (x : (⟨1, ![N]⟩ : Shape).Idx → α) (v : IVec ⟨1, ![T]⟩ 32) (e : Fin T) :
    Host.gather (vecGatherDims N T wf) x (broadcastInDim ⟨2, ![T, 1]⟩ ![0] wc v) (ix1 e)
      = x (ix1 ⟨min (v (ix1 e)).toInt.toNat (N - 1), by omega⟩) := by
  rw [gatherVec_apply_col hN]
  exact congrArg (fun z : BitVec 32 => x (ix1 ⟨min z.toInt.toNat (N - 1), by omega⟩)) (bcastCol_apply wc v e)

/-- A gather of rows read at `(e, k)`, for ANY one-column array of start indices: the operand's row at the start index
    `idx (e, 0)`, read signed and clamped into `[0, N − 1]`, at column `k`. -/
theorem gatherRow_apply_col {N T C w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (k : Fin C) :
    Host.gather (rowGatherDims N T C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N T C wf).start (ix2 e k) idx 0 + (rowGatherDims N T C wf).batchCoord (ix2 e k) 0
      + (rowGatherDims N T C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N T C wf).startIndexMap from List.mem_singleton.mpr rfl)]
    have hsi : (rowGatherDims N T C wf).siIdx (ix2 e k) ⟨List.idxOf (0 : Fin 2) (rowGatherDims N T C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N T C wf).start (ix2 e k) idx 1 + (rowGatherDims N T C wf).batchCoord (ix2 e k) 1
      + (rowGatherDims N T C wf).offCoord (ix2 e k) 1 = k.val
    have h10 : (1 : Fin 2) ∉ [(0 : Fin 2)] := by decide
    have h1 : (1 : Fin 2) ∉ (rowGatherDims N T C wf).startIndexMap := h10
    have hk : (1 : Fin 2) ∈ (rowGatherDims N T C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.zero_add, Nat.add_zero]
    rfl

/-- THE GATHER OF ROWS READ AT `(e, k)`: the operand's row at the start index `v e`, read signed and clamped into
    `[0, N − 1]`, at column `k`. -/
theorem gatherRow_apply {N T C : ℕ} (hN : 0 < N)
    (wf : GatherDims.WF ⟨2, ![N, C]⟩ ⟨2, ![T, 1]⟩ ⟨2, ![T, C]⟩ [1] [0] [] [0] [] 1 ![1, C])
    (wc : (⟨1, ![T]⟩ : Shape).BroadcastsInDim ⟨2, ![T, 1]⟩ ![0])
    (x : (⟨2, ![N, C]⟩ : Shape).Idx → α) (v : IVec ⟨1, ![T]⟩ 32) (e : Fin T) (k : Fin C) :
    Host.gather (rowGatherDims N T C wf) x (broadcastInDim ⟨2, ![T, 1]⟩ ![0] wc v) (ix2 e k)
      = x (ix2 ⟨min (v (ix1 e)).toInt.toNat (N - 1), by omega⟩ k) := by
  rw [gatherRow_apply_col hN]
  exact congrArg (fun z : BitVec 32 => x (ix2 ⟨min z.toInt.toNat (N - 1), by omega⟩ k)) (bcastCol_apply wc v e)

/-! ## The extents of a two-part concatenation -/

/-- A vector of `T` entries that is a vector of `E` entries followed by one of `N` entries has `T = E + N`. -/
theorem extent_concat1 {E N T : ℕ} (h1 : Shape.Concatenates [(⟨1, ![E]⟩ : Shape), ⟨1, ![N]⟩] ⟨1, ![T]⟩ 0) :
    E + N = T := by
  have e := h1.2.2
  simp only [List.map, List.sum_cons, List.sum_nil] at e
  rw [dif_pos trivial, dif_pos trivial] at e
  exact e

/-- A matrix of `T` rows that is a matrix of `E` rows above one of `N` rows has `T = E + N`. -/
theorem extent_concat2 {E N T C : ℕ}
    (h2 : Shape.Concatenates [(⟨2, ![E, C]⟩ : Shape), ⟨2, ![N, C]⟩] ⟨2, ![T, C]⟩ 0) : E + N = T := by
  have e := h2.2.2
  simp only [List.map, List.sum_cons, List.sum_nil] at e
  rw [dif_pos trivial, dif_pos trivial] at e
  exact e

/-! ## A two-part concatenation along the first axis, read at an index built from coordinates -/

/-- A vector of `E` entries followed by one of `N` entries reads, at a position below `E`, the first vector there. -/
theorem concat1_left {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : e.val < E) :
    concatenate ⟨1, ![T]⟩ 0 [⟨⟨1, ![E]⟩, a⟩, ⟨⟨1, ![N]⟩, b⟩] h1 (ix1 e) = a (ix1 ⟨e.val, he⟩) :=
  concatenate_pair_apply_left 0 a b h1 (ix1 e) rfl (ix1 ⟨e.val, he⟩) fun c => by
    match c with
    | ⟨0, _⟩ => rfl

/-- … and, at a position `e` at or past `E`, the second vector at `e − E`. -/
theorem concat1_right {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : E ≤ e.val) :
    concatenate ⟨1, ![T]⟩ 0 [⟨⟨1, ![E]⟩, a⟩, ⟨⟨1, ![N]⟩, b⟩] h1 (ix1 e)
      = b (ix1 ⟨e.val - E, by have := extent_concat1 h1; have := e.isLt; omega⟩) :=
  concatenate_pair_apply_right 0 a b h1 (ix1 e) rfl rfl (ix1 ⟨e.val - E, _⟩)
    (fun c hc => absurd (Subsingleton.elim _ _) hc) (by show e.val - E + E = e.val; omega)

/-- A matrix of `E` rows above one of `N` rows reads, at a row below `E`, the first matrix there. -/
theorem concat2_left {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : e.val < E) :
    concatenate ⟨2, ![T, C]⟩ 0 [⟨⟨2, ![E, C]⟩, a⟩, ⟨⟨2, ![N, C]⟩, b⟩] h2 (ix2 e k) = a (ix2 ⟨e.val, he⟩ k) :=
  concatenate_pair_apply_left 0 a b h2 (ix2 e k) rfl (ix2 ⟨e.val, he⟩ k) fun c => by
    match c with
    | ⟨0, _⟩ => rfl
    | ⟨1, _⟩ => rfl

/-- … and, at a row `e` at or past `E`, the second matrix at row `e − E`. -/
theorem concat2_right {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : E ≤ e.val) :
    concatenate ⟨2, ![T, C]⟩ 0 [⟨⟨2, ![E, C]⟩, a⟩, ⟨⟨2, ![N, C]⟩, b⟩] h2 (ix2 e k)
      = b (ix2 ⟨e.val - E, by have := extent_concat2 h2; have := e.isLt; omega⟩ k) :=
  concatenate_pair_apply_right 0 a b h2 (ix2 e k) rfl rfl (ix2 ⟨e.val - E, _⟩ k)
    (fun c => by
      match c with
      | ⟨0, _⟩ => exact fun hc => absurd rfl hc
      | ⟨1, _⟩ => exact fun _ => rfl)
    (by show e.val - E + E = e.val; omega)

/-! ## The wrap of negative indices -/

/-- The wrap of negative indices a gather's index vector goes through first: an entry that is negative as a signed
    word gets `K` (the operand's extent) added, the others are kept. -/
abbrev wrapNeg {s : Shape} (w0 : (⟨0, ![]⟩ : Shape).BroadcastsInDim s ![]) (K : BitVec 32) (v : IVec s 32) : IVec s 32 :=
  select (cmpi .slt v (broadcastInDim s ![] w0 (constantI ⟨0, ![]⟩ 32 0#32)))
    (addi v (broadcastInDim s ![] w0 (constantI ⟨0, ![]⟩ 32 K))) v

/-- The wrap on one word. -/
def wrapWord (K z : BitVec 32) : BitVec 32 := Scalar.select (IntOp.cmpi .slt z 0#32) (IntOp.addi z K) z

/-- The wrap at an index is the wrap of the entry there. -/
theorem wrapNeg_apply {s : Shape} (w0 : (⟨0, ![]⟩ : Shape).BroadcastsInDim s ![]) (K : BitVec 32) (v : IVec s 32)
    (i : s.Idx) : wrapNeg w0 K v i = wrapWord K (v i) := rfl

/-- The word of a natural number below `2 ^ 31` reads, signed, that number. -/
theorem ofNat_toInt_of_lt {l : ℕ} (h : l < 2 ^ 31) : (BitVec.ofNat 32 l).toInt = (l : Int) := by
  have h1 : (BitVec.ofNat 32 l).toNat = l := by
    rw [BitVec.toNat_ofNat]; exact Nat.mod_eq_of_lt (by omega)
  rw [BitVec.toInt_eq_toNat_cond, h1]
  split
  · rfl
  · omega

/-- The word of a natural number below `2 ^ 31` is not negative, so the wrap leaves it alone. -/
theorem wrapWord_ofNat {l : ℕ} (h : l < 2 ^ 31) (K : BitVec 32) : wrapWord K (BitVec.ofNat 32 l) = BitVec.ofNat 32 l := by
  have hs : (BitVec.ofNat 32 l).slt 0#32 = false := by
    rw [BitVec.slt, ofNat_toInt_of_lt h]; simp
  unfold wrapWord IntOp.cmpi
  simp only [hs]
  rfl

/-- The wrapped index list `v ++ [0, …, N − 1]` at an edge entry is the wrapped `v` there. -/
theorem wrapNeg_withLoops_left {E N T : ℕ} (h1 : Shape.Concatenates [(⟨1, ![E]⟩ : Shape), ⟨1, ![N]⟩] ⟨1, ![T]⟩ 0)
    (w0T : (⟨0, ![]⟩ : Shape).BroadcastsInDim ⟨1, ![T]⟩ ![]) (w0E : (⟨0, ![]⟩ : Shape).BroadcastsInDim ⟨1, ![E]⟩ ![])
    (K : BitVec 32) (v : IVec ⟨1, ![E]⟩ 32) (e : Fin T) (he : e.val < E) :
    wrapNeg w0T K (concatenate ⟨1, ![T]⟩ 0 [⟨⟨1, ![E]⟩, v⟩, ⟨⟨1, ![N]⟩, iotaInDim ⟨1, ![N]⟩ 32 0⟩] h1) (ix1 e)
      = wrapNeg w0E K v (ix1 ⟨e.val, he⟩) := by
  rw [wrapNeg_apply, wrapNeg_apply, concat1_left h1 _ _ e he]

/-- The wrapped index list `v ++ [0, …, N − 1]` at loop entry `E + l`, read signed and clamped into `[0, N − 1]`,
    is `l`: the word of `l < N < 2 ^ 31` is not negative, and `l ≤ N − 1`. -/
theorem wrapNeg_withLoops_right {E N T : ℕ} (hN : N < 2 ^ 31)
    (h1 : Shape.Concatenates [(⟨1, ![E]⟩ : Shape), ⟨1, ![N]⟩] ⟨1, ![T]⟩ 0)
    (w0T : (⟨0, ![]⟩ : Shape).BroadcastsInDim ⟨1, ![T]⟩ ![])
    (K : BitVec 32) (v : IVec ⟨1, ![E]⟩ 32) (e : Fin T) (he : E ≤ e.val) :
    min (wrapNeg w0T K (concatenate ⟨1, ![T]⟩ 0 [⟨⟨1, ![E]⟩, v⟩, ⟨⟨1, ![N]⟩, iotaInDim ⟨1, ![N]⟩ 32 0⟩] h1)
      (ix1 e)).toInt.toNat (N - 1) = e.val - E := by
  have hT := extent_concat1 h1
  have hl : e.val - E < N := by have := e.isLt; omega
  rw [wrapNeg_apply, concat1_right h1 _ _ e he]
  show min (wrapWord K (BitVec.ofNat 32 (e.val - E))).toInt.toNat (N - 1) = e.val - E
  rw [wrapWord_ofNat (by omega), ofNat_toInt_of_lt (by omega), Int.toNat_natCast]
  omega

/-! ## Gathers over the index list with the self loops appended -/

/-- A GATHER OF ENTRIES at the wrapped index list `v ++ [0, …, N − 1]` is the gather at the wrapped `v` followed by the
    operand itself: loop entry `l` reads the operand at `l`. -/
theorem gatherVec_withLoops {E N T : ℕ}
    (wfT : GatherDims.WF ⟨1, ![N]⟩ ⟨2, ![T, 1]⟩ ⟨1, ![T]⟩ [] [0] [] [0] [] 1 ![1])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨1, ![N]⟩ ⟨2, ![E, 1]⟩ ⟨1, ![E]⟩ [] [0] [] [0] [] 1 ![1])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (hN : N < 2 ^ 31) (hN0 : 0 < N)
    (x : (⟨1, ![N]⟩ : Shape).Idx → α) (v : IVec ⟨1, ![E]⟩ 32) (K : BitVec 32) :
    Host.gather (vecGatherDims N T wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨1, ![T]⟩ 0
          [⟨⟨1, ![E]⟩, Host.gather (vecGatherDims N E wfE) x (broadcastInDim ⟨2, ![E, 1]⟩ ![0] wcE (wrapNeg w0E K v))⟩,
            ⟨⟨1, ![N]⟩, x⟩] h1 := by
  funext j
  obtain ⟨e, rfl⟩ : ∃ e : Fin T, j = ix1 e := ⟨j 0, eq_ix1 j⟩
  refine (gatherVec_apply hN0 wfT wcT x _ e).trans ?_
  by_cases he : e.val < E
  · refine Eq.trans ?_ (concat1_left h1 _ x e he).symm
    refine Eq.trans ?_ (gatherVec_apply hN0 wfE wcE x _ ⟨e.val, he⟩).symm
    exact congrArg (fun z : BitVec 32 => x (ix1 ⟨min z.toInt.toNat (N - 1), by omega⟩))
      (wrapNeg_withLoops_left h1 w0T w0E K v e he)
  · have he' : E ≤ e.val := Nat.le_of_not_lt he
    refine Eq.trans ?_ (concat1_right h1 _ x e he').symm
    exact congrArg x (congrArg (ix1 (n := N)) (Fin.ext (wrapNeg_withLoops_right hN h1 w0T K v e he')))

/-- A GATHER OF ROWS at the wrapped index list `v ++ [0, …, N − 1]` is the gather at the wrapped `v` above the operand
    itself: loop entry `l` reads the operand's row `l`. -/
theorem gatherRow_withLoops {E N T C : ℕ}
    (wfT : GatherDims.WF ⟨2, ![N, C]⟩ ⟨2, ![T, 1]⟩ ⟨2, ![T, C]⟩ [1] [0] [] [0] [] 1 ![1, C])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨2, ![N, C]⟩ ⟨2, ![E, 1]⟩ ⟨2, ![E, C]⟩ [1] [0] [] [0] [] 1 ![1, C])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (hN : N < 2 ^ 31) (hN0 : 0 < N)
    (x : (⟨2, ![N, C]⟩ : Shape).Idx → α) (v : IVec ⟨1, ![E]⟩ 32) (K : BitVec 32) :
    Host.gather (rowGatherDims N T C wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨2, ![T, C]⟩ 0
          [⟨⟨2, ![E, C]⟩, Host.gather (rowGatherDims N E C wfE) x (broadcastInDim ⟨2, ![E, 1]⟩ ![0] wcE (wrapNeg w0E K v))⟩,
            ⟨⟨2, ![N, C]⟩, x⟩] h2 := by
  funext j
  obtain ⟨e, k, rfl⟩ : ∃ (e : Fin T) (k : Fin C), j = ix2 e k := ⟨j 0, j 1, eq_ix2 j⟩
  refine (gatherRow_apply hN0 wfT wcT x _ e k).trans ?_
  by_cases he : e.val < E
  · refine Eq.trans ?_ (concat2_left h2 _ x e k he).symm
    refine Eq.trans ?_ (gatherRow_apply hN0 wfE wcE x _ ⟨e.val, he⟩ k).symm
    exact congrArg (fun z : BitVec 32 => x (ix2 ⟨min z.toInt.toNat (N - 1), by omega⟩ k))
      (wrapNeg_withLoops_left h1 w0T w0E K v e he)
  · have he' : E ≤ e.val := Nat.le_of_not_lt he
    refine Eq.trans ?_ (concat2_right h2 _ x e k he').symm
    exact congrArg x (congrArg (fun r : Fin N => ix2 r k) (Fin.ext (wrapNeg_withLoops_right hN h1 w0T K v e he')))

end LoopConcat

end
-- ==== Proof.RefSpec.lean ====
/-
  The reference program's stages, read as whole-array functions: its two row-wise products are plain matrix products,
  the bias additions add a vector to every row, the gather of all rows at the indices 0, 1, 2, … is the array itself,
  and its head is the logistic function of an affine layer of the maximum with zero of an affine layer.
-/
import proofs.«101593_j3702261809849_1_alg».proof.Proof.RefRead
import proofs.«101593_j3702261809849_1_alg».proof.Proof.Spec
import proofs.«101593_j3702261809849_1_alg».proof.Proof.LibLoopGather
import Idealize.ShloMosaic.Lib.ValueIdx
import Idealize.ShloMosaic.PureOps.Ideal.Laws

noncomputable section
namespace Cert.ReferenceIdeal.RefSpec
open Idealize.ShloMosaic Idealize.ShloMosaic.ValueIdx Cert.ReferenceIdeal Cert.ReferenceIdeal.Gen Cert.ReferenceIdeal.ReadP
open Cert.LibDenseSpec Cert.Spec

/-- The first product of the reference is the plain matrix product of its two operands. -/
theorem v4_eq (x2 : (⟨S100000x64, .f32⟩ : BufTy).Contents (Elt Ideal)) (x3 : (⟨S64x64, .f32⟩ : BufTy).Contents (Elt Ideal)) : val_main_v4 (F := Ideal) x2 x3 = prod x2 x3 := by
  funext j
  obtain ⟨p, q, rfl⟩ : ∃ (p : Fin 100000) (q : Fin 64), j = ix2 p q := ⟨j 0, j 1, eq_ix2 j⟩
  rw [val_main_v4_apply, prod_apply]
  refine Finset.sum_congr rfl fun k _ => ?_
  have el : lidx_main_v4 (ix2 p q) k = ix2 p k := funext fun a => by
    match a with
    | ⟨0, _⟩ => rfl
    | ⟨1, _⟩ => rfl
  have er : ridx_main_v4 (ix2 p q) k = ix2 k q := funext fun a => by
    match a with
    | ⟨0, _⟩ => rfl
    | ⟨1, _⟩ => rfl
  rw [el, er]

/-- The second product of the reference: the bias vector added to every row of its input, the maximum with zero, times
    the weight matrix. -/
theorem v50_eq (x0 : (⟨S2x1100000, .i32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v50 (F := Ideal) x0 x2 x3 x4 x5 = prod (relu (addRow (val_main_v45 (F := Ideal) x0 x2 x3) x4)) x5 := by
  funext j
  obtain ⟨p, q, rfl⟩ : ∃ (p : Fin 100000) (q : Fin 64), j = ix2 p q := ⟨j 0, j 1, eq_ix2 j⟩
  rw [val_main_v50_apply, prod_apply]
  refine Finset.sum_congr rfl fun k _ => ?_
  have el : lidx_main_v50 (ix2 p q) k = ix2 p k := funext fun a => by
    match a with
    | ⟨0, _⟩ => rfl
    | ⟨1, _⟩ => rfl
  have er : ridx_main_v50 (ix2 p q) k = ix2 k q := funext fun a => by
    match a with
    | ⟨0, _⟩ => rfl
    | ⟨1, _⟩ => rfl
  have eb : idx_main_v46 (idx_main_v47 (ix2 p k)) = ix1 k := funext fun a => by
    match a with
    | ⟨0, _⟩ => rfl
  rw [el, er, val_main_v49_apply, val_main_v48_apply, val_main_v47_apply, val_main_v46_apply, val_main_call1_v0_apply,
    val_main_call1_cst_apply, eb, relu_apply, addRow_apply]
  show max (_ + _) (Ideal.ofBits .f32 0x00000000#32) * _ = _
  rw [Ideal.ofBits_zero_f32]

/-- The bit pattern 0x3F800000 is the number one. -/
theorem ofBits_one_f32 : Ideal.ofBits .f32 0x3F800000#32 = 1 := by
  simp [Ideal.ofBits, Ideal.ieee, -EReal.coe_mul]; norm_num

/-- The head of the reference: 1 / (1 + exp(−z)) of the second affine layer z of the maximum with zero of the first
    affine layer, which is the logistic function of z. -/
theorem v129_eq (x0 : (⟨S2x1100000, .i32⟩ : BufTy).Contents (Elt Ideal)) (x1 : (⟨S100000, .i32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) :
    val_main_v129 (F := Ideal) x0 x1 x2 x3 x4 x5 x6 x7 x8 x9 x10
      = Cert.LibDenseSpec.logistic (dense (relu (dense (val_main_v114 (F := Ideal) x0 x1 x2 x3 x4 x5 x6) x7 x8)) x9 x10) := by
  funext j
  obtain ⟨p, q, rfl⟩ : ∃ (p : Fin 1000) (q : Fin 1), j = ix2 p q := ⟨j 0, j 1, eq_ix2 j⟩
  -- the hidden layer at entry (p, k)
  have hidden : ∀ k : Fin 128, val_main_v119 (F := Ideal) x0 x1 x2 x3 x4 x5 x6 x7 x8 (ix2 p k)
      = relu (dense (val_main_v114 (F := Ideal) x0 x1 x2 x3 x4 x5 x6) x7 x8) (ix2 p k) := by
    intro k
    have eb : idx_main_v116 (idx_main_v117 (ix2 p k)) = ix1 k := funext fun a => by
      match a with
      | ⟨0, _⟩ => rfl
    rw [val_main_v119_apply, val_main_v118_apply, val_main_v117_apply, val_main_v116_apply, val_main_call3_v0_apply,
      val_main_call3_cst_apply, val_main_v115_apply, eb, relu_apply, dense_apply]
    show max (_ + _) (Ideal.ofBits .f32 0x00000000#32) = _
    rw [Ideal.ofBits_zero_f32]
    refine congrArg (fun s => max (s + x8 (ix1 k)) 0) (Finset.sum_congr rfl fun c _ => ?_)
    have el : lidx_main_v115 (ix2 p k) c = ix2 p c := funext fun a => by
      match a with
      | ⟨0, _⟩ => rfl
      | ⟨1, _⟩ => rfl
    have er : ridx_main_v115 (ix2 p k) c = ix2 c k := funext fun a => by
      match a with
      | ⟨0, _⟩ => rfl
      | ⟨1, _⟩ => rfl
    rw [el, er]
  -- the second affine layer at entry (p, q)
  have outer : val_main_v123 (F := Ideal) x0 x1 x2 x3 x4 x5 x6 x7 x8 x9 x10 (ix2 p q)
      = dense (relu (dense (val_main_v114 (F := Ideal) x0 x1 x2 x3 x4 x5 x6) x7 x8)) x9 x10 (ix2 p q) := by
    have eb : idx_main_v121 (idx_main_v122 (ix2 p q)) = ix1 q := funext fun a => by
      match a with
      | ⟨0, _⟩ => exact Fin.ext (by show 0 = q.val; omega)
    rw [val_main_v123_apply, val_main_v122_apply, val_main_v121_apply, val_main_v120_apply, eb, dense_apply]
    refine congrArg (fun s => s + x10 (ix1 q)) (Finset.sum_congr rfl fun k _ => ?_)
    have el : lidx_main_v120 (ix2 p q) k = ix2 p k := funext fun a => by
      match a with
      | ⟨0, _⟩ => rfl
      | ⟨1, _⟩ => rfl
    have er : ridx_main_v120 (ix2 p q) k = ix2 k q := funext fun a => by
      match a with
      | ⟨0, _⟩ => rfl
      | ⟨1, _⟩ => rfl
    rw [el, er, hidden k]
  rw [val_main_v129_apply, val_main_v128_apply, val_main_cst_29_apply, val_main_v127_apply, val_main_v126_apply,
    val_main_cst_28_apply, val_main_v125_apply, val_main_v124_apply, outer, logistic_apply]
  rw [Ideal.hostDivf_def, Ideal.ofBits_def, ofBits_one_f32, Ideal.addf_def, Ideal.hostUnary_exp_def, Ideal.hostNegf_def,
    Ideal.negf_def]
  unfold Ideal.logistic
  rfl

/-- The second bias addition of the reference adds the bias vector to every row. -/
theorem v94_eq (x0 : (⟨S2x1100000, .i32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v94 (F := Ideal) x0 x2 x3 x4 x5 x6 = addRow (val_main_v91 (F := Ideal) x0 x2 x3 x4 x5) x6 := by
  funext j
  obtain ⟨p, q, rfl⟩ : ∃ (p : Fin 100000) (q : Fin 64), j = ix2 p q := ⟨j 0, j 1, eq_ix2 j⟩
  have eb : idx_main_v92 (idx_main_v93 (ix2 p q)) = ix1 q := funext fun a => by
    match a with
    | ⟨0, _⟩ => rfl
  rw [val_main_v94_apply, val_main_v93_apply, val_main_v92_apply, eb, addRow_apply]
  rfl

/-- The index list 0, 1, 2, … (each entry kept by the wrap of negative entries, none being negative) gathers every row
    of the array at its own place: the gather is the array itself. -/
theorem v102_eq (x0 : (⟨S2x1100000, .i32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v102 (F := Ideal) x0 x2 x3 x4 x5 x6 = val_main_v94 (F := Ideal) x0 x2 x3 x4 x5 x6 := by
  funext j
  obtain ⟨p, q, rfl⟩ : ∃ (p : Fin 100000) (q : Fin 64), j = ix2 p q := ⟨j 0, j 1, eq_ix2 j⟩
  have hp : p.val < 100000 := p.isLt
  -- entry p of the index list is the word of p
  have hv : val_main_v100 (F := Ideal) (ix1 p) = BitVec.ofNat 32 p.val := by
    rw [val_main_v100_apply, val_main_v97_apply, val_main_v99_apply, val_main_v95_apply, val_main_v96_apply,
      val_main_v98_apply, val_main_c_22_apply, val_main_c_23_apply]
    exact LoopConcat.wrapWord_ofNat (l := p.val) (by omega) 100000#32
  unfold val_main_v102 val_main_v101
  refine (LoopConcat.gatherRow_apply (N := 100000) (T := 100000) (C := 64) (by decide)
    gather_S100000x64_S100000x1_S100000x64_1_0_n_n_0_1_164_wf bcast_S100000_S100000x1_0
    (val_main_v94 (F := Ideal) x0 x2 x3 x4 x5 x6) (val_main_v100 (F := Ideal)) p q).trans ?_
  refine congrArg (val_main_v94 (F := Ideal) x0 x2 x3 x4 x5 x6) (congrArg (fun r : Fin 100000 => ix2 r q) (Fin.ext ?_))
  show min (val_main_v100 (F := Ideal) (ix1 p)).toInt.toNat (100000 - 1) = p.val
  rw [hv, LoopConcat.ofNat_toInt_of_lt (by omega)]
  omega

end Cert.ReferenceIdeal.RefSpec
end
-- ==== Proof.KernelValue.lean ====
/-
  The kernel's program read as a value. The buffer contents at every boundary of the program — after each stretch of
  whole-array operations and after each of the three kernels' write-backs — are followed from the launch memory: the
  stretches compute the edge norm, the two aggregations and the mean pooling exactly as the reference's stages do; the
  first kernel's array is the product emb · W1, the second's is max(agg + b1, 0) · W2 row block by row block, the third's
  is the two-layer head with the logistic function; each equals the reference's stage of the same meaning, so the
  result buffer ends at the reference's last stage of the argument arrays.
-/
import proofs.«101593_j3702261809849_1_alg».proof.Proof.Gen.KernelIdeal.Frame
import proofs.«101593_j3702261809849_1_alg».proof.Proof.HostK
import proofs.«101593_j3702261809849_1_alg».proof.Proof.Region0
import proofs.«101593_j3702261809849_1_alg».proof.Proof.Region1
import proofs.«101593_j3702261809849_1_alg».proof.Proof.Region2
import proofs.«101593_j3702261809849_1_alg».proof.Proof.RefSpec

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.HostValue Cert.KernelIdeal.RegionValue
open Cert.ReferenceIdeal.ReadP Cert.ReferenceIdeal.RefSpec

variable (m : (ℓ : Loc nD τ sig) → Buf (Elt Ideal) ℓ) (ρ : Dev nD → PrngReg) (c : Dev nD)

/-! ## Up to the first kernel -/

theorem w3_v5 : W3 m ρ c (Proc.devRef .tc main_v5) = val_main_v6 (F := Ideal) (m ((c : Thread nD τ).loc main_arg0)) :=
  (s02_v5 _).trans ((s01_v5 _).trans (s0_v5 (W0 m ρ c)))
theorem w3_v6 : W3 m ρ c (Proc.devRef .tc main_v6) = val_main_v7 (F := Ideal) (m ((c : Thread nD τ).loc main_arg0)) :=
  (s02_v6 _).trans ((s01_v6 _).trans (s0_v6 (W0 m ρ c)))
theorem w3_v31 : W3 m ρ c (Proc.devRef .tc main_v31) = val_main_v32 (F := Ideal) (m ((c : Thread nD τ).loc main_arg0)) :=
  s02_v31 (W2 m ρ c) _ ((s01_v5 _).trans (s0_v5 (W0 m ρ c))) ((s01_v6 _).trans (s0_v6 (W0 m ρ c)))
    (s01_v16 (W1 m ρ c) _ (s0_v12 (W0 m ρ c)) (s0_v15 (W0 m ρ c)) (s0_cst3 (W0 m ρ c)))
theorem w3_arg (b : Ref sig .tc) (hb : b ∈ argRefs) : W3 m ρ c (Proc.devRef .tc b) = m ((c : Thread nD τ).loc b) :=
  s012_args (W0 m ρ c) b hb

/-! ## The first kernel's array, and what rides past it -/

theorem w4_v32 : W4 m ρ c (Proc.devRef .tc main_v32) = val_main_v4 (F := Ideal) (m ((c : Thread nD τ).loc main_arg2)) (m ((c : Thread nD τ).loc main_arg3)) :=
  (W4_arr m ρ c 2).trans ((final0 (V3 m ρ) c _ _ (w3_arg m ρ c main_arg2 (by decide : main_arg2 ∈ argRefs)) (w3_arg m ρ c main_arg3 (by decide : main_arg3 ∈ argRefs))).trans
    (v4_eq _ _).symm)
theorem w4_v5 : W4 m ρ c (Proc.devRef .tc main_v5) = val_main_v6 (F := Ideal) (m ((c : Thread nD τ).loc main_arg0)) :=
  (W4_of_ne m ρ c main_v5 (by decide)).trans (w3_v5 m ρ c)
theorem w4_v6 : W4 m ρ c (Proc.devRef .tc main_v6) = val_main_v7 (F := Ideal) (m ((c : Thread nD τ).loc main_arg0)) :=
  (W4_of_ne m ρ c main_v6 (by decide)).trans (w3_v6 m ρ c)
theorem w4_v31 : W4 m ρ c (Proc.devRef .tc main_v31) = val_main_v32 (F := Ideal) (m ((c : Thread nD τ).loc main_arg0)) :=
  (W4_of_ne m ρ c main_v31 (by decide)).trans (w3_v31 m ρ c)
theorem w4_arg (b : Ref sig .tc) (hb : b ∈ argRefs) (hne : ∀ w, Pipeline.arrRef spec0 w ≠ b) :
    W4 m ρ c (Proc.devRef .tc b) = m ((c : Thread nD τ).loc b) :=
  (W4_of_ne m ρ c b hne).trans (w3_arg m ρ c b hb)

/-! ## Up to the second kernel -/

theorem w5_v45 : W5 m ρ c (Proc.devRef .tc main_v45) = val_main_v45 (F := Ideal) (m ((c : Thread nD τ).loc main_arg0)) (m ((c : Thread nD τ).loc main_arg2)) (m ((c : Thread nD τ).loc main_arg3)) :=
  s1_v45 (W4 m ρ c) _ _ _ (w4_v32 m ρ c) (w4_v5 m ρ c) (w4_v6 m ρ c) (w4_v31 m ρ c)
theorem w5_v46 : W5 m ρ c (Proc.devRef .tc main_v46) = shapeCast S1x64 (m ((c : Thread nD τ).loc main_arg4)) shapeCasts_S64_S1x64 :=
  (s1_v46 (W4 m ρ c)).trans (congrArg (fun b => shapeCast S1x64 b shapeCasts_S64_S1x64) (w4_arg m ρ c main_arg4 (by decide : main_arg4 ∈ argRefs) (by decide)))
theorem w5_v5 : W5 m ρ c (Proc.devRef .tc main_v5) = val_main_v6 (F := Ideal) (m ((c : Thread nD τ).loc main_arg0)) := (s1_v5 _).trans (w4_v5 m ρ c)
theorem w5_v6 : W5 m ρ c (Proc.devRef .tc main_v6) = val_main_v7 (F := Ideal) (m ((c : Thread nD τ).loc main_arg0)) := (s1_v6 _).trans (w4_v6 m ρ c)
theorem w5_v31 : W5 m ρ c (Proc.devRef .tc main_v31) = val_main_v32 (F := Ideal) (m ((c : Thread nD τ).loc main_arg0)) := (s1_v31 _).trans (w4_v31 m ρ c)
theorem w5_arg (b : Ref sig .tc) (hb : b ∈ argRefs) (hne : ∀ w, Pipeline.arrRef spec0 w ≠ b) :
    W5 m ρ c (Proc.devRef .tc b) = m ((c : Thread nD τ).loc b) :=
  (s1_args (W4 m ρ c) b hb).trans (w4_arg m ρ c b hb hne)

/-! ## The second kernel's array -/

theorem w6_v47 : W6 m ρ c (Proc.devRef .tc main_v47) = val_main_v50 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  (W6_arr m ρ c 3).trans ((final1 (V5 m ρ) c _ _ (m ((c : Thread nD τ).loc main_arg4)) _ (w5_v45 m ρ c) (w5_v46 m ρ c)
    (fun q => Cert.Layout.rowCast_apply _ shapeCasts_S64_S1x64 q) (w5_arg m ρ c main_arg5 (by decide : main_arg5 ∈ argRefs) (by decide))).trans (v50_eq _ _ _ _ _).symm)
theorem w6_v5 : W6 m ρ c (Proc.devRef .tc main_v5) = val_main_v6 (F := Ideal) (m ((c : Thread nD τ).loc main_arg0)) :=
  (W6_of_ne m ρ c main_v5 (by decide)).trans (w5_v5 m ρ c)
theorem w6_v6 : W6 m ρ c (Proc.devRef .tc main_v6) = val_main_v7 (F := Ideal) (m ((c : Thread nD τ).loc main_arg0)) :=
  (W6_of_ne m ρ c main_v6 (by decide)).trans (w5_v6 m ρ c)
theorem w6_v31 : W6 m ρ c (Proc.devRef .tc main_v31) = val_main_v32 (F := Ideal) (m ((c : Thread nD τ).loc main_arg0)) :=
  (W6_of_ne m ρ c main_v31 (by decide)).trans (w5_v31 m ρ c)
theorem w6_arg (b : Ref sig .tc) (hb : b ∈ argRefs) (hne0 : ∀ w, Pipeline.arrRef spec0 w ≠ b) (hne1 : ∀ w, Pipeline.arrRef spec1 w ≠ b) :
    W6 m ρ c (Proc.devRef .tc b) = m ((c : Thread nD τ).loc b) :=
  (W6_of_ne m ρ c b hne1).trans (w5_arg m ρ c b hb hne0)

/-! ## Up to the third kernel -/

theorem w7_v75 : W7 m ρ c (Proc.devRef .tc main_v75) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  s2_v75 (W6 m ρ c) _ _ _ _ _ _ _ (w6_v47 m ρ c) (w6_v5 m ρ c) (w6_v6 m ρ c) (w6_v31 m ρ c)
    (w6_arg m ρ c main_arg6 (by decide : main_arg6 ∈ argRefs) (by decide) (by decide)) (w6_arg m ρ c main_arg1 (by decide : main_arg1 ∈ argRefs) (by decide) (by decide))
    (v102_eq _ _ _ _ _ _) (v94_eq _ _ _ _ _ _)
theorem w7_v76 : W7 m ρ c (Proc.devRef .tc main_v76) = shapeCast S1x128 (m ((c : Thread nD τ).loc main_arg8)) shapeCasts_S128_S1x128 :=
  (s2_v76 (W6 m ρ c)).trans (congrArg (fun b => shapeCast S1x128 b shapeCasts_S128_S1x128) (w6_arg m ρ c main_arg8 (by decide : main_arg8 ∈ argRefs) (by decide) (by decide)))
theorem w7_v77 : W7 m ρ c (Proc.devRef .tc main_v77) = shapeCast S1x1 (m ((c : Thread nD τ).loc main_arg10)) shapeCasts_S1_S1x1 :=
  (s2_v77 (W6 m ρ c)).trans (congrArg (fun b => shapeCast S1x1 b shapeCasts_S1_S1x1) (w6_arg m ρ c main_arg10 (by decide : main_arg10 ∈ argRefs) (by decide) (by decide)))
theorem w7_arg (b : Ref sig .tc) (hb : b ∈ argRefs) (hne0 : ∀ w, Pipeline.arrRef spec0 w ≠ b) (hne1 : ∀ w, Pipeline.arrRef spec1 w ≠ b) :
    W7 m ρ c (Proc.devRef .tc b) = m ((c : Thread nD τ).loc b) :=
  (s2_args (W6 m ρ c) b hb).trans (w6_arg m ρ c b hb hne0 hne1)

/-! ## The third kernel's array, and the result -/

theorem w8_v78 : W8 m ρ c (Proc.devRef .tc main_v78) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((final2 (V7 m ρ) c _ _ _ (m ((c : Thread nD τ).loc main_arg8)) _ _ (m ((c : Thread nD τ).loc main_arg10)) (w7_v75 m ρ c)
    (w7_arg m ρ c main_arg7 (by decide : main_arg7 ∈ argRefs) (by decide) (by decide)) (w7_v76 m ρ c)
    (fun q => Cert.Layout.rowCast_apply _ shapeCasts_S128_S1x128 q)
    (w7_arg m ρ c main_arg9 (by decide : main_arg9 ∈ argRefs) (by decide) (by decide)) (w7_v77 m ρ c)
    (Cert.Layout.rowCast_apply _ shapeCasts_S1_S1x1 (0 : Fin 1))).trans (v129_eq _ _ _ _ _ _ _ _ _ _ _).symm)

/-- The result buffer at the last boundary is the reference's last stage of the argument arrays. -/
theorem w9_v79 : W9 m ρ c (Proc.devRef .tc main_v79) = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  s3_v79 (W8 m ρ c) _ _ _ _ _ _ _ _ _ _ _ (w8_v78 m ρ c)

end Cert.KernelIdeal.KernelValue

end
-- ==== Proof.RefValue.lean ====
/-
  The reference's run read back: the fold of its 171 whole-array operations over any contents of the buffers leaves, in
  the result buffer, the last stage of the reference's chain of stages applied to the argument arrays — for any float
  values; so every execution of the reference ends with the result at that stage of the launch contents.
-/
import proofs.«101593_j3702261809849_1_alg».proof.Proof.RefRun
import proofs.«101593_j3702261809849_1_alg».proof.Proof.RefRead
import proofs.«101593_j3702261809849_1_alg».proof.Proof.LibConcatCongr

noncomputable section

namespace Cert.ReferenceIdeal.RefValue

open Idealize.ShloMosaic Idealize.ShloMosaic.TcCoe Idealize.SL.Sem Idealize.ShloMosaic.StableHlo Cert.ReferenceIdeal Cert.ReferenceIdeal.Gen
open Cert.ReferenceIdeal.ValueP Cert.ReferenceIdeal.ReadP

attribute [local congr] Idealize.ShloMosaic.concatenate_pair_congr

variable {F : FTy → Type} [FloatOps F]

set_option maxHeartbeats 40000000 in
/-- From any contents of the buffers, the operations leave the result buffer at the last stage of the argument arrays:
    each operation's result is its function of its operands' results, and the stages are those functions composed. -/
theorem value (V : Valuation τ sig (Elt F)) :
    after (ops (F := F)) V (Proc.devRef .tc main_v130) = val_main_v130 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  after_results_simp
  rfl

/-- Every weakly fair execution of the reference terminates without a fault, with the result at the last stage of
    the launch contents of the arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) = val_main_v130 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (value (launchContents m c)), (h c).2⟩) (Cert.ReferenceIdeal.ValueP.run m ρ)

end Cert.ReferenceIdeal.RefValue

end
-- ==== Proof.lean ====
/-
  A three-kernel graph network against its plain reference, over the extended reals.

  Both programs compute, from an edge list with self loops appended, the symmetric edge norm (degrees by a scatter-add
  of ones, 1/sqrt where positive, gathered at both ends of every edge), two rounds of "multiply by a weight matrix,
  gather at the sources, scale, scatter-add at the targets, add a bias" with a maximum with zero between them, a mean
  pooling over the graph ids, and a two-layer head ending in the logistic function. The kernel's program runs the three
  matrix stages as tiled kernels (row blocks of 10000 for the two 100000-row products, one block for the head) and
  computes the edge norm once; the reference computes it twice and gathers the rows at 0 … 99999 once more. Every
  matrix product is the plain finite sum over the contracted coordinate on both sides, so no law of the extended reals
  beyond that is needed and the precondition is never opened.

  The kernel side: the frame proof's run with the result named (RunValue), the buffer contents followed through the
  stretches of whole-array operations and the three kernels' write-backs (HostK, Region0–2, KernelValue). The reference
  side: its run (RefRun) and its operations read back as the chain of its stages (RefRead, RefValue); the stages that
  are spelt differently on the two sides are identified in RefSpec.
-/
import proofs.«101593_j3702261809849_1_alg».proof.Defs
import proofs.«101593_j3702261809849_1_alg».proof.Proof.Gen.Kernel
import proofs.«101593_j3702261809849_1_alg».proof.Proof.Gen.Kernel.Frame
import proofs.«101593_j3702261809849_1_alg».proof.Proof.Gen.KernelIdeal
import proofs.«101593_j3702261809849_1_alg».proof.Proof.Gen.KernelIdeal.Frame
import proofs.«101593_j3702261809849_1_alg».proof.Proof.Gen.ReferenceIdeal
import proofs.«101593_j3702261809849_1_alg».proof.Proof.Gen.Pre_finite_inputs
import proofs.«101593_j3702261809849_1_alg».proof.Proof.RunValue
import proofs.«101593_j3702261809849_1_alg».proof.Proof.KernelValue
import proofs.«101593_j3702261809849_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both runs end with the result at the reference's last stage of the (agreeing) argument arrays. -/
theorem algebraic : Cert.algebraic_KernelIdeal_ReferenceIdeal := by
  intro m ρ m' ρ' _ hagree
  refine ⟨fun c => Cert.ReferenceIdeal.ReadP.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.w9_v79 m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
